-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256 : Shape := ⟨2, ![16, 256]⟩
abbrev S14541x256 : Shape := ⟨2, ![14541, 256]⟩
abbrev S237x256 : Shape := ⟨2, ![237, 256]⟩
abbrev S16 : Shape := ⟨1, ![16]⟩
abbrev S272115 : Shape := ⟨1, ![272115]⟩
abbrev S_ : Shape := ⟨0, ![]⟩

class Facts : Prop where
  bcast_S_S16x256 : S_.BroadcastsInDim S16x256 (![] : Fin 0 → Fin S16x256.rank)
  reducesTo_S16x256_S_d0_1 : S16x256.ReducesTo [0, 1] S_
  h_S_ : 0 < S_.numel
  bcast_S_S14541x256 : S_.BroadcastsInDim S14541x256 (![] : Fin 0 → Fin S14541x256.rank)
  reducesTo_S14541x256_S_d0_1 : S14541x256.ReducesTo [0, 1] S_
  bcast_S_S237x256 : S_.BroadcastsInDim S237x256 (![] : Fin 0 → Fin S237x256.rank)
  reducesTo_S237x256_S_d0_1 : S237x256.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg3 : IVec S16 32) (main_v13 : IVec S_ 1) (main_v15 : IVec S16 1) (main_c_5 : IVec S_ 1) : IVec S_ 1 :=
  let main_v16 : IVec S_ 1 := (fun x v => Host.reduce IntOp.andi x v reducesTo_S16_S_d0 h_S_) main_v15 main_c_5
  let main_v17 : IVec S_ 1 := andi main_v13 main_v16
  let main_c_6 : IVec S_ 32 := constantI S_ 32 14541#32
  let main_v18 : IVec S16 32 := broadcastInDim S16 ![] bcast_S_S16 main_c_6
  let main_v19 : IVec S16 1 := cmpi .slt main_arg3 main_v18
  let main_c_7 : IVec S_ 1 := constantI S_ 1 1#1
  let main_v20 : IVec S_ 1 := (fun x v => Host.reduce IntOp.andi x v reducesTo_S16_S_d0 h_S_) main_v19 main_c_7
  let main_v21 : IVec S_ 1 := andi main_v17 main_v20
  main_v21

def fn {F : FTy → Type} [FloatOps F] (main_arg0 : FVec F S16x256 .f32) (main_arg1 : FVec F S14541x256 .f32) (main_arg2 : FVec F S237x256 .f32) (main_arg3 : IVec S16 32) (main_arg4 : IVec S16 32) (main_arg5 : IVec S272115 32) (main_arg6 : IVec S272115 32) (main_arg7 : IVec S272115 32) : IVec S_ 1 :=
  let main_v0 : FVec F S16x256 .f32 := Host.absf main_arg0
  let main_cst : FVec F S_ .f32 := constant S_ .f32 0x7F800000#32
  let main_v1 : FVec F S16x256 .f32 := broadcastInDim S16x256 ![] bcast_S_S16x256 main_cst
  let main_v2 : IVec S16x256 1 := cmpf .olt main_v0 main_v1
  let main_c : IVec S_ 1 := constantI S_ 1 1#1
  let main_v3 : IVec S_ 1 := (fun x v => Host.reduce IntOp.andi x v reducesTo_S16x256_S_d0_1 h_S_) main_v2 main_c
  let main_v4 : FVec F S14541x256 .f32 := Host.absf main_arg1
  let main_cst_0 : FVec F S_ .f32 := constant S_ .f32 0x7F800000#32
  let main_v5 : FVec F S14541x256 .f32 := broadcastInDim S14541x256 ![] bcast_S_S14541x256 main_cst_0
  let main_v6 : IVec S14541x256 1 := cmpf .olt main_v4 main_v5
  let main_c_1 : IVec S_ 1 := constantI S_ 1 1#1
  let main_v7 : IVec S_ 1 := (fun x v => Host.reduce IntOp.andi x v reducesTo_S14541x256_S_d0_1 h_S_) main_v6 main_c_1
  let main_v8 : IVec S_ 1 := andi main_v3 main_v7
  let main_v9 : FVec F S237x256 .f32 := Host.absf main_arg2
  let main_cst_2 : FVec F S_ .f32 := constant S_ .f32 0x7F800000#32
  let main_v10 : FVec F S237x256 .f32 := broadcastInDim S237x256 ![] bcast_S_S237x256 main_cst_2
  let main_v11 : IVec S237x256 1 := cmpf .olt main_v9 main_v10
  let main_c_3 : IVec S_ 1 := constantI S_ 1 1#1
  let main_v12 : IVec S_ 1 := (fun x v => Host.reduce IntOp.andi x v reducesTo_S237x256_S_d0_1 h_S_) main_v11 main_c_3
  let main_v13 : IVec S_ 1 := andi main_v8 main_v12
  let main_c_4 : IVec S_ 32 := constantI S_ 32 0#32
  let main_v14 : IVec S16 32 := broadcastInDim S16 ![] bcast_S_S16 main_c_4
  let main_v15 : IVec S16 1 := cmpi .sge main_arg3 main_v14
  let main_c_5 : IVec S_ 1 := constantI S_ 1 1#1
  fn_part1 (F := F) main_arg3 main_v13 main_v15 main_c_5
-- ==== Kernel.lean ====
abbrev S16x256 : Shape := ⟨2, ![16, 256]⟩
abbrev S14541x256 : Shape := ⟨2, ![14541, 256]⟩
abbrev S237x256 : Shape := ⟨2, ![237, 256]⟩
abbrev S16 : Shape := ⟨1, ![16]⟩
abbrev S272115 : Shape := ⟨1, ![272115]⟩
abbrev S_ : Shape := ⟨0, ![]⟩
abbrev S16x1 : Shape := ⟨2, ![16, 1]⟩
abbrev S14541x16 : Shape := ⟨2, ![14541, 16]⟩
abbrev S2048x256 : Shape := ⟨2, ![2048, 256]⟩
abbrev S2048x16 : Shape := ⟨2, ![2048, 16]⟩
abbrev S2048x1 : Shape := ⟨2, ![2048, 1]⟩
abbrev S1x256 : Shape := ⟨2, ![1, 256]⟩
abbrev S2048 : Shape := ⟨1, ![2048]⟩
abbrev S1 : Shape := ⟨1, ![1]⟩
abbrev S272115x1 : Shape := ⟨2, ![272115, 1]⟩
abbrev S272115x16 : Shape := ⟨2, ![272115, 16]⟩
abbrev S1x16 : Shape := ⟨2, ![1, 16]⟩
abbrev S16x14541 : Shape := ⟨2, ![16, 14541]⟩

abbrev nBuf : Space → Nat
  | .hbm => 38
  | .vmem => 6
  | .smem => 1
  | _ => 0

abbrev bufTy : (tb : Table) → Fin (tcTables nBuf tb) → BufTy
  | .hbm, ⟨0, _⟩ => ⟨S16x256, .f32⟩
  | .hbm, ⟨1, _⟩ => ⟨S14541x256, .f32⟩
  | .hbm, ⟨2, _⟩ => ⟨S237x256, .f32⟩
  | .hbm, ⟨3, _⟩ => ⟨S16, .i32⟩
  | .hbm, ⟨4, _⟩ => ⟨S272115, .i32⟩
  | .hbm, ⟨5, _⟩ => ⟨S272115, .i32⟩
  | .hbm, ⟨6, _⟩ => ⟨S272115, .i32⟩
  | .hbm, ⟨7, _⟩ => ⟨S_, .i32⟩
  | .hbm, ⟨8, _⟩ => ⟨S16, .i32⟩
  | .hbm, ⟨9, _⟩ => ⟨S16, .i1⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S16, .i32⟩
  | .hbm, ⟨14, _⟩ => ⟨S16x1, .i32⟩
  | .hbm, ⟨15, _⟩ => ⟨S16x256, .f32⟩
  | .hbm, ⟨16, _⟩ => ⟨S14541x16, .f32⟩
  | .hbm, ⟨17, _⟩ => ⟨S_, .i32⟩
  | .hbm, ⟨18, _⟩ => ⟨S272115, .i32⟩
  | .hbm, ⟨19, _⟩ => ⟨S272115, .i1⟩
  | .hbm, ⟨20, _⟩ => ⟨S_, .i32⟩
  | .hbm, ⟨21, _⟩ => ⟨S272115, .i32⟩
  | .hbm, ⟨22, _⟩ => ⟨S272115, .i32⟩
  | .hbm, ⟨23, _⟩ => ⟨S272115, .i32⟩
  | .hbm, ⟨24, _⟩ => ⟨S272115x1, .i32⟩
  | .hbm, ⟨25, _⟩ => ⟨S272115x16, .f32⟩
  | .hbm, ⟨26, _⟩ => ⟨S272115x1, .i32⟩
  | .hbm, ⟨27, _⟩ => ⟨S1x16, .i32⟩
  | .hbm, ⟨28, _⟩ => ⟨S272115x16, .i32⟩
  | .hbm, ⟨29, _⟩ => ⟨S272115x16, .i32⟩
  | .hbm, ⟨30, _⟩ => ⟨S272115x16, .i1⟩
  | .hbm, ⟨31, _⟩ => ⟨S272115x16, .f32⟩
  | .hbm, ⟨32, _⟩ => ⟨S272115x16, .f32⟩
  | .hbm, ⟨33, _⟩ => ⟨S_, .f32⟩
  | .hbm, ⟨34, _⟩ => ⟨S14541x16, .f32⟩
  | .hbm, ⟨35, _⟩ => ⟨S272115x1, .i32⟩
  | .hbm, ⟨36, _⟩ => ⟨S14541x16, .f32⟩
  | .hbm, ⟨37, _⟩ => ⟨S16x14541, .f32⟩
  | .local _ .vmem, ⟨0, _⟩ => ⟨S16x256, .f32⟩
  | .local _ .vmem, ⟨1, _⟩ => ⟨S16x256, .f32⟩
  | .local _ .vmem, ⟨2, _⟩ => ⟨S2048x256, .f32⟩
  | .local _ .vmem, ⟨3, _⟩ => ⟨S2048x256, .f32⟩
  | .local _ .vmem, ⟨4, _⟩ => ⟨S2048x16, .f32⟩
  | .local _ .vmem, ⟨5, _⟩ => ⟨S2048x16, .f32⟩
  | .local _ .smem, ⟨0, _⟩ => ⟨S16, .i32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_arg3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16 : S_.BroadcastsInDim S16 (![] : Fin 0 → Fin S16.rank)
  bcast_S16_S16x1_0 : S16.BroadcastsInDim S16x1 (![0] : Fin 1 → Fin S16x1.rank)
  iota_S2048x1_d0_w32 : S2048x1.Iotas .tc 32 [0]
  inb_S2048x256_S2048x256_0_0 : ∀ a, (![0, 0] : Fin 2 → Nat) a + S2048x256.size a ≤ S2048x256.size a
  h_S2048x256 : 0 < S2048x256.numel
  inb_S16x256_S16x256_0_0 : ∀ a, (![0, 0] : Fin 2 → Nat) a + S16x256.size a ≤ S16x256.size a
  h_S16x256 : 0 < S16x256.numel
  shapeCasts_S16x256_S16x256 : S16x256.ShapeCasts S16x256
  slices_S16x256_o0_0_S1x256 : S16x256.Slices ![0, 0] S1x256
  broadcasts_S1x256_S2048x256 : S1x256.Broadcasts S2048x256
  reduces_S2048x256_S2048 : S2048x256.Reduces [1] S2048
  shapeCasts_S2048_S2048x1 : S2048.ShapeCasts S2048x1
  inb_S16_S1_0 : ∀ a, (![0] : Fin 1 → Nat) a + S1.size a ≤ S16.size a
  numel1_S1 : S1.numel = 1
  slices_S16x256_o1_0_S1x256 : S16x256.Slices ![1, 0] S1x256
  inb_S16_S1_1 : ∀ a, (![1] : Fin 1 → Nat) a + S1.size a ≤ S16.size a
  slices_S16x256_o2_0_S1x256 : S16x256.Slices ![2, 0] S1x256
  inb_S16_S1_2 : ∀ a, (![2] : Fin 1 → Nat) a + S1.size a ≤ S16.size a
  slices_S16x256_o3_0_S1x256 : S16x256.Slices ![3, 0] S1x256
  inb_S16_S1_3 : ∀ a, (![3] : Fin 1 → Nat) a + S1.size a ≤ S16.size a
  slices_S16x256_o4_0_S1x256 : S16x256.Slices ![4, 0] S1x256
  inb_S16_S1_4 : ∀ a, (![4] : Fin 1 → Nat) a + S1.size a ≤ S16.size a
  slices_S16x256_o5_0_S1x256 : S16x256.Slices ![5, 0] S1x256
  inb_S16_S1_5 : ∀ a, (![5] : Fin 1 → Nat) a + S1.size a ≤ S16.size a
  slices_S16x256_o6_0_S1x256 : S16x256.Slices ![6, 0] S1x256
  inb_S16_S1_6 : ∀ a, (![6] : Fin 1 → Nat) a + S1.size a ≤ S16.size a
  slices_S16x256_o7_0_S1x256 : S16x256.Slices ![7, 0] S1x256
  inb_S16_S1_7 : ∀ a, (![7] : Fin 1 → Nat) a + S1.size a ≤ S16.size a
  slices_S16x256_o8_0_S1x256 : S16x256.Slices ![8, 0] S1x256
  inb_S16_S1_8 : ∀ a, (![8] : Fin 1 → Nat) a + S1.size a ≤ S16.size a
  slices_S16x256_o9_0_S1x256 : S16x256.Slices ![9, 0] S1x256
  inb_S16_S1_9 : ∀ a, (![9] : Fin 1 → Nat) a + S1.size a ≤ S16.size a
  slices_S16x256_o10_0_S1x256 : S16x256.Slices ![10, 0] S1x256
  inb_S16_S1_10 : ∀ a, (![10] : Fin 1 → Nat) a + S1.size a ≤ S16.size a
  slices_S16x256_o11_0_S1x256 : S16x256.Slices ![11, 0] S1x256
  inb_S16_S1_11 : ∀ a, (![11] : Fin 1 → Nat) a + S1.size a ≤ S16.size a
  slices_S16x256_o12_0_S1x256 : S16x256.Slices ![12, 0] S1x256
  inb_S16_S1_12 : ∀ a, (![12] : Fin 1 → Nat) a + S1.size a ≤ S16.size a
  slices_S16x256_o13_0_S1x256 : S16x256.Slices ![13, 0] S1x256
  inb_S16_S1_13 : ∀ a, (![13] : Fin 1 → Nat) a + S1.size a ≤ S16.size a
  slices_S16x256_o14_0_S1x256 : S16x256.Slices ![14, 0] S1x256
  inb_S16_S1_14 : ∀ a, (![14] : Fin 1 → Nat) a + S1.size a ≤ S16.size a
  slices_S16x256_o15_0_S1x256 : S16x256.Slices ![15, 0] S1x256
  inb_S16_S1_15 : ∀ a, (![15] : Fin 1 → Nat) a + S1.size a ≤ S16.size a
  concatenates_S2048x1_S2048x1_S2048x1_S2048x1_S2048x1_S2048x1_S2048x1_S2048x1_S2048x1_S2048x1_S2048x1_S2048x1_S2048x1_S2048x1_S2048x1_S2048x1_S2048x16_d1 : Shape.Concatenates [S2048x1, S2048x1, S2048x1, S2048x1, S2048x1, S2048x1, S2048x1, S2048x1, S2048x1, S2048x1, S2048x1, S2048x1, S2048x1, S2048x1, S2048x1, S2048x1] S2048x16 1
  inb_S2048x16_S2048x16_0_0 : ∀ a, (![0, 0] : Fin 2 → Nat) a + S2048x16.size a ≤ S2048x16.size a
  h_S2048x16 : 0 < S2048x16.numel
  bcast_S_S272115 : S_.BroadcastsInDim S272115 (![] : Fin 0 → Fin S272115.rank)
  bcast_S272115_S272115x1_0 : S272115.BroadcastsInDim S272115x1 (![0] : Fin 1 → Fin S272115x1.rank)
  bcast_S16_S1x16_1 : S16.BroadcastsInDim S1x16 (![1] : Fin 1 → Fin S1x16.rank)
  bcast_S272115x1_S272115x16_0_1 : S272115x1.BroadcastsInDim S272115x16 (![0, 1] : Fin 2 → Fin S272115x16.rank)
  bcast_S1x16_S272115x16_0_1 : S1x16.BroadcastsInDim S272115x16 (![0, 1] : Fin 2 → Fin S272115x16.rank)
  bcast_S_S14541x16 : S_.BroadcastsInDim S14541x16 (![] : Fin 0 → Fin S14541x16.rank)
  transposes_S14541x16_S16x14541_1_0 : S14541x16.Transposes [1, 0] S16x14541
  gather_S237x256_S16x1_S16x256_1_0_n_n_0_1_1256_wf : GatherDims.WF S237x256 S16x1 S16x256 [1] [0] [] [0] [] 1 ![1, 256]
  gather_S14541x16_S272115x1_S272115x16_1_0_n_n_0_1_116_wf : GatherDims.WF S14541x16 S272115x1 S272115x16 [1] [0] [] [0] [] 1 ![1, 16]
  scatter_S14541x16_S272115x1_S272115x16_1_0_0_1_wf : ScatterDims.WF S14541x16 S272115x1 S272115x16 [1] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S16x256.size a
  hwx0_0 : ∀ i : grid0.Coords, EltTy.bits .f32 = 32 ∨ (Rect.block (s := S16x256) S16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x256.size a < S14541x256.size a
  hwx0_2 : ∀ i : grid0.Coords, EltTy.bits .f32 = 32 ∨ (Rect.unit (s := S14541x256) (fun a => cc0_transform_2 i a * S2048x256.size a) (fun a => (Pipeline.Clip.of (cc0_transform_2 i a) (S2048x256.size a) (S14541x256.size a)).extent (S2048x256.size a)) fun a => Pipeline.Clip.inb (Pipeline.Clip.ok_of (hstart0_2 i a))).WholeWords (EltTy.packing .f32)
  hwxs0_2 : ∀ i : grid0.Coords, EltTy.bits .f32 = 32 ∨ (Rect.unit (s := S2048x256) (fun _ => 0) (fun a => (Pipeline.Clip.of (cc0_transform_2 i a) (S2048x256.size a) (S14541x256.size a)).extent (S2048x256.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S2048x16.size a < S14541x16.size a
  hwx0_3 : ∀ i : grid0.Coords, EltTy.bits .f32 = 32 ∨ (Rect.unit (s := S14541x16) (fun a => cc0_transform_3 i a * S2048x16.size a) (fun a => (Pipeline.Clip.of (cc0_transform_3 i a) (S2048x16.size a) (S14541x16.size a)).extent (S2048x16.size a)) fun a => Pipeline.Clip.inb (Pipeline.Clip.ok_of (hstart0_3 i a))).WholeWords (EltTy.packing .f32)
  hwxs0_3 : ∀ i : grid0.Coords, EltTy.bits .f32 = 32 ∨ (Rect.unit (s := S2048x16) (fun _ => 0) (fun a => (Pipeline.Clip.of (cc0_transform_3 i a) (S2048x16.size a) (S14541x16.size a)).extent (S2048x16.size a)) fun a => (Nat.zero_add _).trans_le (Pipeline.Clip.extent_le (Pipeline.Clip.ok_of (hstart0_3 i a)))).WholeWords (EltTy.packing .f32)

variable [Facts₀]

def gather_S237x256_S16x1_S16x256_1_0_n_n_0_1_1256 : GatherDims S237x256 S16x1 S16x256 where
  offsetDims := [1]
  collapsedSliceDims := [0]
  operandBatchingDims := []
  startIndicesBatchingDims := []
  startIndexMap := [0]
  indexVectorDim := 1
  sliceSizes := ![1, 256]
  wf := gather_S237x256_S16x1_S16x256_1_0_n_n_0_1_1256_wf
def gather_S14541x16_S272115x1_S272115x16_1_0_n_n_0_1_116 : GatherDims S14541x16 S272115x1 S272115x16 where
  offsetDims := [1]
  collapsedSliceDims := [0]
  operandBatchingDims := []
  startIndicesBatchingDims := []
  startIndexMap := [0]
  indexVectorDim := 1
  sliceSizes := ![1, 16]
  wf := gather_S14541x16_S272115x1_S272115x16_1_0_n_n_0_1_116_wf
def scatter_S14541x16_S272115x1_S272115x16_1_0_0_1 : ScatterDims S14541x16 S272115x1 S272115x16 where
  updateWindowDims := [1]
  insertedWindowDims := [0]
  scatterDimsToOperandDims := [0]
  indexVectorDim := 1
  wf := scatter_S14541x16_S272115x1_S272115x16_1_0_0_1_wf

abbrev spec0_0 : Pipeline.WinSpec sig grid0.rank :=
  Pipeline.WinSpec.ofSpec (Memref.whole main_arg0) S16x256.size reads0_0 false true 1 stage0_0 sem0_0 nbuf0_0 hstage0_0

abbrev spec0_1 : Pipeline.WinSpec sig grid0.rank :=
  Pipeline.WinSpec.ofSpec (Memref.whole main_v6) S16x256.size reads0_1 false true 1 stage0_1 sem0_1 nbuf0_1 hstage0_1

abbrev clip0_2 (i : grid0.Coords) : Fin S14541x256.rank → Pipeline.Clip := fun a => Pipeline.Clip.of (cc0_transform_2 i a) (S2048x256.size a) (S14541x256.size a)
abbrev spec0_2 : Pipeline.WinSpec sig grid0.rank :=
  Pipeline.WinSpec.ofSpec (Memref.whole main_arg1) S2048x256.size reads0_2 false false 2 stage0_2 sem0_2 nbuf0_2 hstage0_2

abbrev clip0_3 (i : grid0.Coords) : Fin S14541x16.rank → Pipeline.Clip := fun a => Pipeline.Clip.of (cc0_transform_3 i a) (S2048x16.size a) (S14541x16.size a)
abbrev spec0_3 : Pipeline.WinSpec sig grid0.rank :=
  Pipeline.WinSpec.ofSpec (Memref.whole main_v7) S2048x16.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
abbrev clip0 (pf : pre0.Contents (Elt F)) : (w : Fin 4) → grid0.Coords → Fin (spec0 w).shape.rank → Pipeline.Clip := fun | 0 => fun _ _ => none | 1 => fun _ _ => none | 2 => clip0_2 | 3 => clip0_3 | ⟨_ + 4, h⟩ => absurd h (Nat.not_lt.2 (Nat.le_add_left _ _))
theorem hclip0 : ∀ (pf : pre0.Contents (Elt F)), ok0 pf → ∀ w (i : grid0.Coords) a, Pipeline.Clip.Ok (ix0 pf w i a) ((spec0 w).size a) ((spec0 w).shape.size a) (clip0 pf w i a) :=
  fun _ _ => fun | 0 => hinb0_0 | 1 => hinb0_1 | 2 => fun i a => Pipeline.Clip.ok_of (hstart0_2 i a) | 3 => fun i a => Pipeline.Clip.ok_of (hstart0_3 i a) | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.unit (fun a => ix0 pf w i a * (spec0 w).size a)
    (fun a => (clip0 pf w i a).extent ((spec0 w).size a)) fun a => Pipeline.Clip.inb (hclip0 pf hok w i a)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))
theorem hwxs0 : ∀ (pf : pre0.Contents (Elt F)) (hok : ok0 pf) w (i : grid0.Coords), (spec0 w).elt.bits = 32 ∨ (Rect.unit (s := (spec0 w).block) (fun _ => 0)
    (fun a => (clip0 pf w i a).extent ((spec0 w).size a)) fun a => (Nat.zero_add _).trans_le (Pipeline.Clip.extent_le (hclip0 pf hok w i a))).WholeWords (spec0 w).elt.packing :=
  fun _ _ => fun | 0 => fun _ => .inr (Rect.wholeWords_whole _ _) | 1 => fun _ => .inr (Rect.wholeWords_whole _ _) | 2 => hwxs0_2 | 3 => hwxs0_3 | ⟨_ + 4, h⟩ => absurd h (Nat.not_lt.2 (Nat.le_add_left _ _))
abbrev loose0 : Fin 4 → Bool := fun | 0 => false | 1 => false | 2 => true | 3 => true | ⟨_ + 4, h⟩ => absurd h (Nat.not_lt.2 (Nat.le_add_left _ _))
theorem hstage0 : ∀ w s, ((spec0 w).stage s).IsWhole := fun | 0 => hstage0_0 | 1 => hstage0_1 | 2 => hstage0_2 | 3 => hstage0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S16x256 : Shape := ⟨2, ![16, 256]⟩
abbrev S14541x256 : Shape := ⟨2, ![14541, 256]⟩
abbrev S237x256 : Shape := ⟨2, ![237, 256]⟩
abbrev S16 : Shape := ⟨1, ![16]⟩
abbrev S272115 : Shape := ⟨1, ![272115]⟩
abbrev S_ : Shape := ⟨0, ![]⟩
abbrev S16x1 : Shape := ⟨2, ![16, 1]⟩
abbrev S14541x1x256 : Shape := ⟨3, ![14541, 1, 256]⟩
abbrev S1x16x256 : Shape := ⟨3, ![1, 16, 256]⟩
abbrev S14541x16x256 : Shape := ⟨3, ![14541, 16, 256]⟩
abbrev S14541x16 : Shape := ⟨2, ![14541, 16]⟩
abbrev S16x2 : Shape := ⟨2, ![16, 2]⟩
abbrev S272115x1 : Shape := ⟨2, ![272115, 1]⟩
abbrev S272115x16 : Shape := ⟨2, ![272115, 16]⟩
abbrev S1x16 : Shape := ⟨2, ![1, 16]⟩
abbrev S16x14541 : Shape := ⟨2, ![16, 14541]⟩

abbrev nBuf : Space → Nat
  | .hbm => 82
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S14541x256, .f32⟩
  | .hbm, ⟨2, _⟩ => ⟨S237x256, .f32⟩
  | .hbm, ⟨3, _⟩ => ⟨S16, .i32⟩
  | .hbm, ⟨4, _⟩ => ⟨S16, .i32⟩
  | .hbm, ⟨5, _⟩ => ⟨S272115, .i32⟩
  | .hbm, ⟨6, _⟩ => ⟨S272115, .i32⟩
  | .hbm, ⟨7, _⟩ => ⟨S272115, .i32⟩
  | .hbm, ⟨8, _⟩ => ⟨S_, .i32⟩
  | .hbm, ⟨9, _⟩ => ⟨S16, .i32⟩
  | .hbm, ⟨10, _⟩ => ⟨S16, .i1⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S16, .i32⟩
  | .hbm, ⟨15, _⟩ => ⟨S16x1, .i32⟩
  | .hbm, ⟨16, _⟩ => ⟨S16x256, .f32⟩
  | .hbm, ⟨17, _⟩ => ⟨S16x256, .f32⟩
  | .hbm, ⟨18, _⟩ => ⟨S14541x1x256, .f32⟩
  | .hbm, ⟨19, _⟩ => ⟨S1x16x256, .f32⟩
  | .hbm, ⟨20, _⟩ => ⟨S14541x16x256, .f32⟩
  | .hbm, ⟨21, _⟩ => ⟨S14541x16x256, .f32⟩
  | .hbm, ⟨22, _⟩ => ⟨S14541x16x256, .f32⟩
  | .hbm, ⟨23, _⟩ => ⟨S1x16x256, .f32⟩
  | .hbm, ⟨24, _⟩ => ⟨S14541x16x256, .f32⟩
  | .hbm, ⟨25, _⟩ => ⟨S14541x16x256, .f32⟩
  | .hbm, ⟨26, _⟩ => ⟨S14541x16x256, .f32⟩
  | .hbm, ⟨27, _⟩ => ⟨S_, .f32⟩
  | .hbm, ⟨28, _⟩ => ⟨S14541x16, .f32⟩
  | .hbm, ⟨29, _⟩ => ⟨S16, .i32⟩
  | .hbm, ⟨30, _⟩ => ⟨S_, .i32⟩
  | .hbm, ⟨31, _⟩ => ⟨S16, .i32⟩
  | .hbm, ⟨32, _⟩ => ⟨S16, .i1⟩
  | .hbm, ⟨33, _⟩ => ⟨S_, .i32⟩
  | .hbm, ⟨34, _⟩ => ⟨S16, .i32⟩
  | .hbm, ⟨35, _⟩ => ⟨S16, .i32⟩
  | .hbm, ⟨36, _⟩ => ⟨S16, .i32⟩
  | .hbm, ⟨37, _⟩ => ⟨S_, .i32⟩
  | .hbm, ⟨38, _⟩ => ⟨S16, .i32⟩
  | .hbm, ⟨39, _⟩ => ⟨S16, .i1⟩
  | .hbm, ⟨40, _⟩ => ⟨S_, .i32⟩
  | .hbm, ⟨41, _⟩ => ⟨S16, .i32⟩
  | .hbm, ⟨42, _⟩ => ⟨S16, .i32⟩
  | .hbm, ⟨43, _⟩ => ⟨S16, .i32⟩
  | .hbm, ⟨44, _⟩ => ⟨S16x1, .i32⟩
  | .hbm, ⟨45, _⟩ => ⟨S16x1, .i32⟩
  | .hbm, ⟨46, _⟩ => ⟨S16x2, .i32⟩
  | .hbm, ⟨47, _⟩ => ⟨S_, .f32⟩
  | .hbm, ⟨48, _⟩ => ⟨S16, .f32⟩
  | .hbm, ⟨49, _⟩ => ⟨S14541x16, .f32⟩
  | .hbm, ⟨50, _⟩ => ⟨S_, .f32⟩
  | .hbm, ⟨51, _⟩ => ⟨S14541x16, .f32⟩
  | .hbm, ⟨52, _⟩ => ⟨S14541x16, .f32⟩
  | .hbm, ⟨53, _⟩ => ⟨S14541x16, .f32⟩
  | .hbm, ⟨54, _⟩ => ⟨S14541x16, .f32⟩
  | .hbm, ⟨55, _⟩ => ⟨S_, .f32⟩
  | .hbm, ⟨56, _⟩ => ⟨S14541x16, .f32⟩
  | .hbm, ⟨57, _⟩ => ⟨S14541x16, .f32⟩
  | .hbm, ⟨58, _⟩ => ⟨S_, .f32⟩
  | .hbm, ⟨59, _⟩ => ⟨S14541x16, .f32⟩
  | .hbm, ⟨60, _⟩ => ⟨S14541x16, .f32⟩
  | .hbm, ⟨61, _⟩ => ⟨S_, .i32⟩
  | .hbm, ⟨62, _⟩ => ⟨S272115, .i32⟩
  | .hbm, ⟨63, _⟩ => ⟨S272115, .i1⟩
  | .hbm, ⟨64, _⟩ => ⟨S_, .i32⟩
  | .hbm, ⟨65, _⟩ => ⟨S272115, .i32⟩
  | .hbm, ⟨66, _⟩ => ⟨S272115, .i32⟩
  | .hbm, ⟨67, _⟩ => ⟨S272115, .i32⟩
  | .hbm, ⟨68, _⟩ => ⟨S272115x1, .i32⟩
  | .hbm, ⟨69, _⟩ => ⟨S272115x16, .f32⟩
  | .hbm, ⟨70, _⟩ => ⟨S272115x1, .i32⟩
  | .hbm, ⟨71, _⟩ => ⟨S1x16, .i32⟩
  | .hbm, ⟨72, _⟩ => ⟨S272115x16, .i32⟩
  | .hbm, ⟨73, _⟩ => ⟨S272115x16, .i32⟩
  | .hbm, ⟨74, _⟩ => ⟨S272115x16, .i1⟩
  | .hbm, ⟨75, _⟩ => ⟨S272115x16, .f32⟩
  | .hbm, ⟨76, _⟩ => ⟨S272115x16, .f32⟩
  | .hbm, ⟨77, _⟩ => ⟨S_, .f32⟩
  | .hbm, ⟨78, _⟩ => ⟨S14541x16, .f32⟩
  | .hbm, ⟨79, _⟩ => ⟨S272115x1, .i32⟩
  | .hbm, ⟨80, _⟩ => ⟨S14541x16, .f32⟩
  | .hbm, ⟨81, _⟩ => ⟨S16x14541, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S14541x256_S14541x1x256_0_2 : S14541x256.BroadcastsInDim S14541x1x256 (![0, 2] : Fin 2 → Fin S14541x1x256.rank)
  bcast_S16x256_S1x16x256_1_2 : S16x256.BroadcastsInDim S1x16x256 (![1, 2] : Fin 2 → Fin S1x16x256.rank)
  bcast_S14541x1x256_S14541x16x256_0_1_2 : S14541x1x256.BroadcastsInDim S14541x16x256 (![0, 1, 2] : Fin 3 → Fin S14541x16x256.rank)
  bcast_S1x16x256_S14541x16x256_0_1_2 : S1x16x256.BroadcastsInDim S14541x16x256 (![0, 1, 2] : Fin 3 → Fin S14541x16x256.rank)
  reducesTo_S14541x16x256_S14541x16_d2 : S14541x16x256.ReducesTo [2] S14541x16
  h_S_ : 0 < S_.numel
  concatenates_S16x1_S16x1_S16x2_d1 : Shape.Concatenates [S16x1, S16x1] S16x2 1
  bcast_S_S14541x16 : S_.BroadcastsInDim S14541x16 (![] : Fin 0 → Fin S14541x16.rank)
  bcast_S_S272115 : S_.BroadcastsInDim S272115 (![] : Fin 0 → Fin S272115.rank)
  bcast_S272115_S272115x1_0 : S272115.BroadcastsInDim S272115x1 (![0] : Fin 1 → Fin S272115x1.rank)
  bcast_S16_S1x16_1 : S16.BroadcastsInDim S1x16 (![1] : Fin 1 → Fin S1x16.rank)
  bcast_S272115x1_S272115x16_0_1 : S272115x1.BroadcastsInDim S272115x16 (![0, 1] : Fin 2 → Fin S272115x16.rank)
  bcast_S1x16_S272115x16_0_1 : S1x16.BroadcastsInDim S272115x16 (![0, 1] : Fin 2 → Fin S272115x16.rank)
  transposes_S14541x16_S16x14541_1_0 : S14541x16.Transposes [1, 0] S16x14541
  gather_S237x256_S16x1_S16x256_1_0_n_n_0_1_1256_wf : GatherDims.WF S237x256 S16x1 S16x256 [1] [0] [] [0] [] 1 ![1, 256]
  scatter_S14541x16_S16x2_S16_n_01_01_1_wf : ScatterDims.WF S14541x16 S16x2 S16 [] [0, 1] [0, 1] 1
  gather_S14541x16_S272115x1_S272115x16_1_0_n_n_0_1_116_wf : GatherDims.WF S14541x16 S272115x1 S272115x16 [1] [0] [] [0] [] 1 ![1, 16]
  scatter_S14541x16_S272115x1_S272115x16_1_0_0_1_wf : ScatterDims.WF S14541x16 S272115x1 S272115x16 [1] [0] [0] 1

variable [Facts₀]

def gather_S237x256_S16x1_S16x256_1_0_n_n_0_1_1256 : GatherDims S237x256 S16x1 S16x256 where
  offsetDims := [1]
  collapsedSliceDims := [0]
  operandBatchingDims := []
  startIndicesBatchingDims := []
  startIndexMap := [0]
  indexVectorDim := 1
  sliceSizes := ![1, 256]
  wf := gather_S237x256_S16x1_S16x256_1_0_n_n_0_1_1256_wf
def scatter_S14541x16_S16x2_S16_n_01_01_1 : ScatterDims S14541x16 S16x2 S16 where
  updateWindowDims := []
  insertedWindowDims := [0, 1]
  scatterDimsToOperandDims := [0, 1]
  indexVectorDim := 1
  wf := scatter_S14541x16_S16x2_S16_n_01_01_1_wf
def gather_S14541x16_S272115x1_S272115x16_1_0_n_n_0_1_116 : GatherDims S14541x16 S272115x1 S272115x16 where
  offsetDims := [1]
  collapsedSliceDims := [0]
  operandBatchingDims := []
  startIndicesBatchingDims := []
  startIndexMap := [0]
  indexVectorDim := 1
  sliceSizes := ![1, 16]
  wf := gather_S14541x16_S272115x1_S272115x16_1_0_n_n_0_1_116_wf
def scatter_S14541x16_S272115x1_S272115x16_1_0_0_1 : ScatterDims S14541x16 S272115x1 S272115x16 where
  updateWindowDims := [1]
  insertedWindowDims := [0]
  scatterDimsToOperandDims := [0]
  indexVectorDim := 1
  wf := scatter_S14541x16_S272115x1_S272115x16_1_0_0_1_wf

class Facts : Prop extends Facts₀ where

variable [Facts]
-- ==== Proof.KFrameKitB.lean ====
/-
  The launch side of the distance program's run, for any float instance: what the region finds in every buffer
  (the launch memory after the nine host lines that gather the relation rows), @main as those lines, the region
  and the twenty-one lines after it, what those later lines may touch, the eight argument arrays read back
  unchanged, and the one prefetched table (the sixteen source indices) as the region and the body hold it.
-/
import proofs.«115556_j12833362280950_1_alg».proof.Proof.Gen.Kernel.Launch
import proofs.«115556_j12833362280950_1_alg».proof.Proof.Gen.Kernel.Skeleton
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Every TensorCore buffer's contents when the region is entered: the launch memory after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-- The later lines touch the windows' arrays and the buffers that bypass the region only, never the table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- And they write none of the windows' arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The argument arrays, as the region finds them -/

/-- No host line before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched table -/

/-- The table's contents when the region is entered (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No index map reads the table, so every contents is admissible. -/
abbrev adm : (pcfg0 (F := F)).Adm := ⟨tbl m, trivial⟩
abbrev cfgM : Pipeline.Cfg sig Λ₀ := cfg0 (adm m)

/-- The table as the body is handed it: its whole buffer as a memref. -/
abbrev tbM0_0 : Memref sig .tc .smem S16 .i32 := Memref.whole main_arg3
abbrev htbM0_0 : tbM0_0.IsWhole := Memref.isWhole_whole _
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The half of the table the region lends the body. -/
theorem PhiT0_eq (c : Dev nD) : (Pipeline.ΦT pre0 (tbl m) c : sProp 𝕄) = tbPt0 c tbM0_0 (tbl m 0) := by
  unfold Pipeline.ΦT Pipeline.prefHeld
  rw [show (Finset.univ : Finset (Fin 1)) = {(0 : Fin 1)} from by decide, bigSep_singleton]
  rfl

end Cert.Kernel.Hand

end
-- ==== Proof.KBodyRunB.lean ====
/-
  The distance kernel's body as one triple, for any float instance: on whole staging memrefs holding the query
  block, the relation block and the entity block, the output memref holding anything and the table lent at a
  half share, the body runs to the end leaving the three inputs and the table as they were and the output memref
  with its stores written — found as a list of pieces by running the body.
-/
import proofs.«115556_j12833362280950_1_alg».proof.Proof.KFrameKitB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The pieces the body's stores leave in the output memref, with the proof that the body runs to them. -/
noncomputable def kernelRun (c : Dev nD) (i : grid0.Coords)
    (arg2 : Memref sig .tc .vmem S16x256 .f32) (harg2 : arg2.IsWhole) (arg3 : Memref sig .tc .vmem S16x256 .f32) (harg3 : arg3.IsWhole)
    (arg4 : Memref sig .tc .vmem S2048x256 .f32) (harg4 : arg4.IsWhole) (arg5 : Memref sig .tc .vmem S2048x16 .f32) (harg5 : arg5.IsWhole)
    (x0 x1 : Vec F S16x256 .f32) (x2 : Vec F S2048x256 .f32) (xt0 : TbBuf0 (F := F) c tbM0_0) :
    { L : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ tbPt0 c tbM0_0 xt0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L) ∗ tbPt0 c tbM0_0 xt0) -∗ K ⟨⟩))
          ⊢ wp frame (wpE (defs₀ (F := F)) Variants.none c none) E (cc0__dist_kernel i tbM0_0 htbM0_0 arg2 harg2 arg3 harg3 arg4 harg4 arg5 harg5) K } := by
  refine ⟨?_, fun E K => ?run⟩
  case run =>
    simp only [cc0__dist_kernel_eq_skeleton]; unfold cc0__dist_kernel_skel
    simp only [k0_part5_eq_skeleton]; unfold k0_part5_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, HT0, Hk⟩
    obtain rfl := harg2.eq_unread hf0
    obtain rfl := harg3.eq_unread hf1
    obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexact HT0

end Cert.Kernel.Hand

end
-- ==== Proof.KFrameRB.lean ====
/-
  The frame of the distance program, for any float instance, with proof data that say nothing of what the body
  computes: the query and relation blocks stay in their staging buffers as fetched, the entity block and the
  output block are whatever the body leaves.  That is all the frame needs — the argument arrays are never
  written — and it is all that can be said at the word level, where the last entity block overhangs the array
  and a row sum is not known to ignore the rows past its end.
-/
import proofs.«115556_j12833362280950_1_alg».proof.Proof.KBodyRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data: the arrays as the region finds them; the two resident input blocks are left as
    handed; nothing is said of the entity block's buffer or of the output's. -/
def rdat (c : Dev nD) : RDat τ (Elt F) Unit ℕ (UR sig nD τ) ℕ (cfgM m) c where
  A w := V m c (Pipeline.arrRef spec0 w)
  after w t Y X := match w with
    | ⟨0, _⟩ => X = Y
    | ⟨1, _⟩ => X = Y
    | ⟨2, _⟩ => True
    | ⟨3, _⟩ => True
  Φ _ := iprop(Pipeline.ΦA spec0 c ∗ Pipeline.ΦT pre0 (tbl m) c)
  q _ := fullShare
  owed _ := 0

theorem rA_eq (c : Dev nD) (w : Fin (cfgM m).W) : (rdat m c).A w = V m c (Pipeline.arrRef spec0 w) := by
  dsimp only [rdat]

/-- The buffers the later lines write. -/
def T0 : Finset (Ref sig .tc) := {main_c_1, main_v8, main_v9, main_c_2, main_v10, main_v11, main_v12, main_v13, main_v14, main_v15, main_v16, main_v17, main_v18, main_v19, main_v20, main_v21, main_cst, main_v22, main_v23, main_v24, main_v25}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- Each window's current staging memref at a point, as the pipeline passes it to the body. -/
abbrev ms0 (t : Fin (cfgM m).N) : Memref sig .tc .vmem S16x256 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S16x256 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S2048x256 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S2048x16 .f32 := spec0_3.stage ((cfgM m).slots t 3)
abbrev hs3 (t : Fin (cfgM m).N) : (ms3 m t).IsWhole := hstage0_3 (((cfgM m).slots t 3).cast nbuf0_3)

/-- The body obligation of the relational data: whatever the four buffers hold, the body runs, hands the two
    resident blocks back as they were and the other two at something. -/
theorem rbody (c : Dev nD) : (rdat m c).BodyObligation (defs₀ (F := F)) Variants.none () Set.univ := fun t Y hY => by
  rw [bigSep_W0, bigSep_W0]
  rw [show (rdat m c).Φ t.succ = (rdat m c).Φ t.castSucc from rfl,
    show (rdat m c).owesAt () t.succ = (rdat m c).owesAt () t.castSucc from rfl]
  rw [show (rdat m c).Φ t.castSucc = iprop(Pipeline.ΦA spec0 c ∗ Pipeline.ΦT pre0 (tbl m) c) from rfl, PhiT0_eq]
  iintro ⟨⟨HΦ, HT0⟩, Ho, H0, H1, H2, H3⟩
  iapply ((kernelRun c (grid0.coords t) (ms0 m t) (hs0 m t) (ms1 m t) (hs1 m t) (ms2 m t) (hs2 m t) (ms3 m t) (hs3 m t)
    (Y 0) (Y 1) (Y 2) (tbl m 0)).2 Set.univ _)
  isplitl [H0]; · iexact H0
  isplitl [H1]; · iexact H1
  isplitl [H2]; · iexact H2
  isplitl [H3]; · iexists _; iexact H3
  isplitl [HT0]; · iexact HT0
  iintro ⟨H0, H1, H2, ⟨%e3, H3⟩, HT0⟩
  isplitl [HΦ HT0]
  · isplitl [HΦ]; · iexact HΦ
    iexact HT0
  isplitl [Ho]; · iexact Ho
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact trivial
    iexact H2
  · iexists ((ms3 m t).view.read (Elt F) ((ms3 m t).view.writes (Elt F) e3
      (kernelRun c (grid0.coords t) (ms0 m t) (hs0 m t) (ms1 m t) (hs1 m t) (ms2 m t) (hs2 m t) (ms3 m t) (hs3 m t)
        (Y 0) (Y 1) (Y 2) (tbl m 0)).1))
    isplitr; · ipureintro; exact trivial
    unfold owns; iexists _; isplitr
    swap; · iexact H3
    ipureintro; rfl

set_option backward.isDefEq.respectTransparency.types false in
/-- The run: every weakly fair execution of @main terminates without a fault; each window's array ends at contents
    the relational data allow, and every other unscoped buffer the later lines do not write is as the region found it. -/
theorem rrun_main : θ_run defs (onTc (τ := τ) (main (F := F))) (s₀ m ρ)
    (RDat.FramePostR (cfgM m) (rdat m) T0 (V m)) :=
  RDat.θ_run_frameP_around_T pcfgs (fun _ => adm m) (0 : Fin 1) launch0 defs₀ Variants.none (rdat m) T0 m ρ main
    (hbody := rbody m) (hshare := fun c => (rdat m c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := rA_eq m) (hpf := V_pre m) (hΦ := fun _ _ => rfl)

/-- The frame: the eight argument arrays end as launched — the two a window stages because an input array is never
    written, the others because neither the region nor the later lines write them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(Eq.mp (congrFun ((rdat m c).ArrAt_in 0 rfl _) _) ((h c).1 0)).trans ((rA_eq m c 0).trans (V_main_arg0 m c)),
     (Eq.mp (congrFun ((rdat m c).ArrAt_in 2 rfl _) _) ((h c).1 2)).trans ((rA_eq m c 2).trans (V_main_arg1 m c)),
     ((h c).2 main_arg2 (by decide : main_arg2 ∈ Pipeline.restRefs sig spec0 \ T0)).trans (V_main_arg2 m c),
     ((h c).2 main_arg3 (by decide : main_arg3 ∈ Pipeline.restRefs sig spec0 \ T0)).trans (V_main_arg3 m c),
     ((h c).2 main_arg4 (by decide : main_arg4 ∈ Pipeline.restRefs sig spec0 \ T0)).trans (V_main_arg4 m c),
     ((h c).2 main_arg5 (by decide : main_arg5 ∈ Pipeline.restRefs sig spec0 \ T0)).trans (V_main_arg5 m c),
     ((h c).2 main_arg6 (by decide : main_arg6 ∈ Pipeline.restRefs sig spec0 \ T0)).trans (V_main_arg6 m c),
     ((h c).2 main_arg7 (by decide : main_arg7 ∈ Pipeline.restRefs sig spec0 \ T0)).trans (V_main_arg7 m c)⟩)
    (rrun_main m ρ)

end Cert.Kernel.Hand

end
-- ==== Proof.KFrameKit.lean ====
/-
  The launch side of the distance program's run, for any float instance: what the region finds in every buffer
  (the launch memory after the nine host lines that gather the relation rows), @main as those lines, the region
  and the twenty-one lines after it, what those later lines may touch, the eight argument arrays read back
  unchanged, and the one prefetched table (the sixteen source indices) as the region and the body hold it.
-/
import proofs.«115556_j12833362280950_1_alg».proof.Proof.Gen.KernelIdeal.Launch
import proofs.«115556_j12833362280950_1_alg».proof.Proof.Gen.KernelIdeal.Skeleton
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Every TensorCore buffer's contents when the region is entered: the launch memory after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-- The later lines touch the windows' arrays and the buffers that bypass the region only, never the table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- And they write none of the windows' arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The argument arrays, as the region finds them -/

/-- No host line before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched table -/

/-- The table's contents when the region is entered (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No index map reads the table, so every contents is admissible. -/
abbrev adm : (pcfg0 (F := F)).Adm := ⟨tbl m, trivial⟩
abbrev cfgM : Pipeline.Cfg sig Λ₀ := cfg0 (adm m)

/-- The table as the body is handed it: its whole buffer as a memref. -/
abbrev tbM0_0 : Memref sig .tc .smem S16 .i32 := Memref.whole main_arg3
abbrev htbM0_0 : tbM0_0.IsWhole := Memref.isWhole_whole _
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The half of the table the region lends the body. -/
theorem PhiT0_eq (c : Dev nD) : (Pipeline.ΦT pre0 (tbl m) c : sProp 𝕄) = tbPt0 c tbM0_0 (tbl m 0) := by
  unfold Pipeline.ΦT Pipeline.prefHeld
  rw [show (Finset.univ : Finset (Fin 1)) = {(0 : Fin 1)} from by decide, bigSep_singleton]
  rfl

end Cert.KernelIdeal.Hand

end
-- ==== Proof.KBodyRun.lean ====
/-
  The distance kernel's body as one triple, for any float instance: on whole staging memrefs holding the query
  block, the relation block and the entity block, the output memref holding anything and the table lent at a
  half share, the body runs to the end leaving the three inputs and the table as they were and the output memref
  with its stores written — found as a list of pieces by running the body.
-/
import proofs.«115556_j12833362280950_1_alg».proof.Proof.KFrameKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The pieces the body's stores leave in the output memref, with the proof that the body runs to them. -/
noncomputable def kernelRun (c : Dev nD) (i : grid0.Coords)
    (arg2 : Memref sig .tc .vmem S16x256 .f32) (harg2 : arg2.IsWhole) (arg3 : Memref sig .tc .vmem S16x256 .f32) (harg3 : arg3.IsWhole)
    (arg4 : Memref sig .tc .vmem S2048x256 .f32) (harg4 : arg4.IsWhole) (arg5 : Memref sig .tc .vmem S2048x16 .f32) (harg5 : arg5.IsWhole)
    (x0 x1 : Vec F S16x256 .f32) (x2 : Vec F S2048x256 .f32) (xt0 : TbBuf0 (F := F) c tbM0_0) :
    { L : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ tbPt0 c tbM0_0 xt0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L) ∗ tbPt0 c tbM0_0 xt0) -∗ K ⟨⟩))
          ⊢ wp frame (wpE (defs₀ (F := F)) Variants.none c none) E (cc0__dist_kernel i tbM0_0 htbM0_0 arg2 harg2 arg3 harg3 arg4 harg4 arg5 harg5) K } := by
  refine ⟨?_, fun E K => ?run⟩
  case run =>
    simp only [cc0__dist_kernel_eq_skeleton]; unfold cc0__dist_kernel_skel
    simp only [k0_part5_eq_skeleton]; unfold k0_part5_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, HT0, Hk⟩
    obtain rfl := harg2.eq_unread hf0
    obtain rfl := harg3.eq_unread hf1
    obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexact HT0

end Cert.KernelIdeal.Hand

end
-- ==== Proof.KFrameR.lean ====
/-
  The frame of the distance program, for any float instance, with proof data that say nothing of what the body
  computes: the query and relation blocks stay in their staging buffers as fetched, the entity block and the
  output block are whatever the body leaves.  That is all the frame needs — the argument arrays are never
  written — and it is all that can be said at the word level, where the last entity block overhangs the array
  and a row sum is not known to ignore the rows past its end.
-/
import proofs.«115556_j12833362280950_1_alg».proof.Proof.KBodyRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data: the arrays as the region finds them; the two resident input blocks are left as
    handed; nothing is said of the entity block's buffer or of the output's. -/
def rdat (c : Dev nD) : RDat τ (Elt F) Unit ℕ (UR sig nD τ) ℕ (cfgM m) c where
  A w := V m c (Pipeline.arrRef spec0 w)
  after w t Y X := match w with
    | ⟨0, _⟩ => X = Y
    | ⟨1, _⟩ => X = Y
    | ⟨2, _⟩ => True
    | ⟨3, _⟩ => True
  Φ _ := iprop(Pipeline.ΦA spec0 c ∗ Pipeline.ΦT pre0 (tbl m) c)
  q _ := fullShare
  owed _ := 0

theorem rA_eq (c : Dev nD) (w : Fin (cfgM m).W) : (rdat m c).A w = V m c (Pipeline.arrRef spec0 w) := by
  dsimp only [rdat]

/-- The buffers the later lines write. -/
def T0 : Finset (Ref sig .tc) := {main_c_1, main_v8, main_v9, main_c_2, main_v10, main_v11, main_v12, main_v13, main_v14, main_v15, main_v16, main_v17, main_v18, main_v19, main_v20, main_v21, main_cst, main_v22, main_v23, main_v24, main_v25}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- Each window's current staging memref at a point, as the pipeline passes it to the body. -/
abbrev ms0 (t : Fin (cfgM m).N) : Memref sig .tc .vmem S16x256 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S16x256 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S2048x256 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S2048x16 .f32 := spec0_3.stage ((cfgM m).slots t 3)
abbrev hs3 (t : Fin (cfgM m).N) : (ms3 m t).IsWhole := hstage0_3 (((cfgM m).slots t 3).cast nbuf0_3)

/-- The body obligation of the relational data: whatever the four buffers hold, the body runs, hands the two
    resident blocks back as they were and the other two at something. -/
theorem rbody (c : Dev nD) : (rdat m c).BodyObligation (defs₀ (F := F)) Variants.none () Set.univ := fun t Y hY => by
  rw [bigSep_W0, bigSep_W0]
  rw [show (rdat m c).Φ t.succ = (rdat m c).Φ t.castSucc from rfl,
    show (rdat m c).owesAt () t.succ = (rdat m c).owesAt () t.castSucc from rfl]
  rw [show (rdat m c).Φ t.castSucc = iprop(Pipeline.ΦA spec0 c ∗ Pipeline.ΦT pre0 (tbl m) c) from rfl, PhiT0_eq]
  iintro ⟨⟨HΦ, HT0⟩, Ho, H0, H1, H2, H3⟩
  iapply ((kernelRun c (grid0.coords t) (ms0 m t) (hs0 m t) (ms1 m t) (hs1 m t) (ms2 m t) (hs2 m t) (ms3 m t) (hs3 m t)
    (Y 0) (Y 1) (Y 2) (tbl m 0)).2 Set.univ _)
  isplitl [H0]; · iexact H0
  isplitl [H1]; · iexact H1
  isplitl [H2]; · iexact H2
  isplitl [H3]; · iexists _; iexact H3
  isplitl [HT0]; · iexact HT0
  iintro ⟨H0, H1, H2, ⟨%e3, H3⟩, HT0⟩
  isplitl [HΦ HT0]
  · isplitl [HΦ]; · iexact HΦ
    iexact HT0
  isplitl [Ho]; · iexact Ho
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact trivial
    iexact H2
  · iexists ((ms3 m t).view.read (Elt F) ((ms3 m t).view.writes (Elt F) e3
      (kernelRun c (grid0.coords t) (ms0 m t) (hs0 m t) (ms1 m t) (hs1 m t) (ms2 m t) (hs2 m t) (ms3 m t) (hs3 m t)
        (Y 0) (Y 1) (Y 2) (tbl m 0)).1))
    isplitr; · ipureintro; exact trivial
    unfold owns; iexists _; isplitr
    swap; · iexact H3
    ipureintro; rfl

set_option backward.isDefEq.respectTransparency.types false in
/-- The run: every weakly fair execution of @main terminates without a fault; each window's array ends at contents
    the relational data allow, and every other unscoped buffer the later lines do not write is as the region found it. -/
theorem rrun_main : θ_run defs (onTc (τ := τ) (main (F := F))) (s₀ m ρ)
    (RDat.FramePostR (cfgM m) (rdat m) T0 (V m)) :=
  RDat.θ_run_frameP_around_T pcfgs (fun _ => adm m) (0 : Fin 1) launch0 defs₀ Variants.none (rdat m) T0 m ρ main
    (hbody := rbody m) (hshare := fun c => (rdat m c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := rA_eq m) (hpf := V_pre m) (hΦ := fun _ _ => rfl)

/-- The frame: the eight argument arrays end as launched — the two a window stages because an input array is never
    written, the others because neither the region nor the later lines write them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(Eq.mp (congrFun ((rdat m c).ArrAt_in 0 rfl _) _) ((h c).1 0)).trans ((rA_eq m c 0).trans (V_main_arg0 m c)),
     (Eq.mp (congrFun ((rdat m c).ArrAt_in 2 rfl _) _) ((h c).1 2)).trans ((rA_eq m c 2).trans (V_main_arg1 m c)),
     ((h c).2 main_arg2 (by decide : main_arg2 ∈ Pipeline.restRefs sig spec0 \ T0)).trans (V_main_arg2 m c),
     ((h c).2 main_arg3 (by decide : main_arg3 ∈ Pipeline.restRefs sig spec0 \ T0)).trans (V_main_arg3 m c),
     ((h c).2 main_arg4 (by decide : main_arg4 ∈ Pipeline.restRefs sig spec0 \ T0)).trans (V_main_arg4 m c),
     ((h c).2 main_arg5 (by decide : main_arg5 ∈ Pipeline.restRefs sig spec0 \ T0)).trans (V_main_arg5 m c),
     ((h c).2 main_arg6 (by decide : main_arg6 ∈ Pipeline.restRefs sig spec0 \ T0)).trans (V_main_arg6 m c),
     ((h c).2 main_arg7 (by decide : main_arg7 ∈ Pipeline.restRefs sig spec0 \ T0)).trans (V_main_arg7 m c)⟩)
    (rrun_main m ρ)

end Cert.KernelIdeal.Hand

end
-- ==== Proof.KBodyOut.lean ====
/-
  What the distance kernel's body stores into its output block at one grid point, as one pure function of
  what it loads: the query block `xe`, the relation block `xr`, the entity block `xa` and the sixteen
  source-index words `w`.  Column `b` is the masked weighted L1 distance of every row of `xa` to query `b`;
  the sixteen columns are laid side by side and the logistic of 12 minus them is taken.
-/
import proofs.«115556_j12833362280950_1_alg».proof.Proof.Gen.KernelIdeal.Skeleton

noncomputable section

namespace Cert.KernelIdeal.Hand

open Idealize.ShloMosaic Cert.KernelIdeal Cert.KernelIdeal.Gen

variable {F : FTy → Type} [FloatOps F] [Cert.KernelIdeal.Facts]

/-- The stored block, from the loaded values. -/
def bodyOut (i : grid0.Coords) (xe xr : Vec F S16x256 .f32) (xa : Vec F S2048x256 .f32) (w : Fin 16 → Elt F .i32) :
    FVec F S2048x16 .f32 :=
  k0_pay23
    (k0_pay3 i xa xe xr (w 0)) (k0_pay4 i xa xe xr (w 1))
    (k0_pay6 (k0_pay1 i) (k0_pay5 xa xe xr) (w 2)) (k0_pay7 (k0_pay1 i) xa xe (k0_pay2 xr) (w 3))
    (k0_pay8 (k0_pay1 i) xa xe (k0_pay2 xr) (w 4)) (k0_pay9 (k0_pay1 i) xa xe (k0_pay2 xr) (w 5))
    (k0_pay11 (k0_pay1 i) xa (k0_pay2 xr) (k0_pay10 xe) (w 6)) (k0_pay12 (k0_pay1 i) xa xe (k0_pay2 xr) (w 7))
    (k0_pay13 (k0_pay1 i) xa xe (k0_pay2 xr) (w 8)) (k0_pay15 (k0_pay1 i) (k0_pay14 xa xe (k0_pay2 xr)) (w 9))
    (k0_pay16 (k0_pay1 i) xa xe (k0_pay2 xr) (w 10)) (k0_pay17 (k0_pay1 i) xa xe (k0_pay2 xr) (w 11))
    (k0_pay18 (k0_pay1 i) xa xe (k0_pay2 xr) (w 12)) (k0_pay20 (k0_pay1 i) xa (k0_pay2 xr) (k0_pay19 xe) (w 13))
    (k0_pay21 (k0_pay1 i) xa xe (k0_pay2 xr) (w 14)) (k0_pay22 (k0_pay1 i) xa xe (k0_pay2 xr) (w 15))

end Cert.KernelIdeal.Hand

end
-- ==== Proof.DistSpec.lean ====
/-
  The score table both programs compute, as one function of the argument arrays over the extended reals.

  For entity row `n` and query `b` the weighted L1 distance is  ∑_j |all[n,j] − emb[b,j]| · |rel[b,j]| ;
  the query's own entity row (`n = src[b]`) is given the large constant 1e8 instead; the score is the
  logistic of 12 minus that.  Literals are kept as the words the programs carry.
-/
import Idealize.ShloMosaic.PureOps.Ideal
import Idealize.ShloMosaic.Lib.ValueIdx

noncomputable section

namespace Cert.DistSpec

open Idealize.ShloMosaic Idealize.ShloMosaic.ValueIdx

/-- The absolute value on the extended reals, as the ideal instance reads `absf`. -/
def eabs (x : EReal) : EReal := max x (-x)

/-- The weighted L1 distance between entity row `n` and query row `b`. -/
def wdist (emb rel : FVec Ideal ⟨2, ![16, 256]⟩ .f32) (all : FVec Ideal ⟨2, ![14541, 256]⟩ .f32)
    (n : Fin 14541) (b : Fin 16) : EReal :=
  ∑ j : Fin 256, eabs (all (ix2 n j) - emb (ix2 b j)) * eabs (rel (ix2 b j))

/-- The masked distance: the row whose number is the query's source index gets the word of 1e8. -/
def mdist (emb rel : FVec Ideal ⟨2, ![16, 256]⟩ .f32) (all : FVec Ideal ⟨2, ![14541, 256]⟩ .f32)
    (src : IVec ⟨1, ![16]⟩ 32) (n : Fin 14541) (b : Fin 16) : EReal :=
  if BitVec.ofNat 32 n.val = src (ix1 b) then Ideal.ofBits .f32 0x4CBEBC20#32 else wdist emb rel all n b

/-- The score table [14541, 16]: the logistic of 12 minus the masked distance. -/
def score (emb rel : FVec Ideal ⟨2, ![16, 256]⟩ .f32) (all : FVec Ideal ⟨2, ![14541, 256]⟩ .f32)
    (src : IVec ⟨1, ![16]⟩ 32) : FVec Ideal ⟨2, ![14541, 16]⟩ .f32 :=
  fun i => Ideal.logistic (Ideal.ofBits .f32 0x41400000#32 - mdist emb rel all src (i 0) (i 1))

end Cert.DistSpec

end
-- ==== Proof.LibTrailAxis.lean ====
/-
  Reductions over the TRAILING axis of an [m, n] vector, kept as an [m, 1] column and broadcast back along
  the n lanes (what `jnp.sum(x, axis=1, keepdims=True)` becomes in a kernel body), read at an entry (i, j):
  the plain sum over the n entries of row i.  Also a value broadcast from a [1, 1, 1] cell to a [1, a, b]
  block, and a sum over a rank-3 index set as the triple sum over its coordinates.  General in the extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.TrailAxis

open Idealize.ShloMosaic Idealize.ShloMosaic.ValueIdx

variable {m n : Nat}

/-- The index of the [m, n] vector that reduces to row `i` with `k` put back on the trailing axis is (i, k). -/
theorem lift_trail (h : (⟨2, ![m, n]⟩ : Shape).Reduces [1] ⟨1, ![m]⟩) (i : Fin m) (k : Fin n) :
    h.lift (ix1 i) k = ix2 i k :=
  funext fun a => Fin.ext (by match a with | ⟨0, _⟩ => rfl | ⟨1, _⟩ => rfl)

/-- A sum over the trailing axis, at row `i`: the sum along row `i`. -/
theorem sum_trail_apply (src : FVec Ideal ⟨2, ![m, n]⟩ .f32) (h : (⟨2, ![m, n]⟩ : Shape).Reduces [1] ⟨1, ![m]⟩)
    (hφ : FKind.Formats .f32) (hacc : (0x00000000#32 : BitVec 32) = 0x00000000#32) (i : Fin m) :
    multiReduction .add [1] ⟨1, ![m]⟩ src 0x00000000#32 h hφ hacc (ix1 i) = ∑ k : Fin n, src (ix2 i k) := by
  refine (Ideal.multiReduction_add_single src 0x00000000#32 h hφ hacc (ix1 i)).trans ?_
  exact Finset.sum_congr rfl fun k _ => congrArg src (lift_trail h i k)

/-- A vector kept as a one-column matrix reads, at (i, 0), entry `i`. -/
theorem keepcol_apply {α : Type} (v : (⟨1, ![m]⟩ : Shape).Idx → α) (hc : (⟨1, ![m]⟩ : Shape).ShapeCasts ⟨2, ![m, 1]⟩)
    (i : Fin m) (u : Fin 1) : shapeCast ⟨2, ![m, 1]⟩ v hc (ix2 i u) = v (ix1 i) :=
  shapeCast_apply v hc _ _ (by
    have hu : u.val = 0 := by omega
    rw [Shape.rowMajor_val_two, Shape.rowMajor_val_one]
    show i.val = i.val * 1 + u.val
    omega)

/-- One column broadcast along `n` lanes reads, at (i, j), the column's entry `i`. -/
theorem broadcastTo_a1_ab_apply {α : Type} (v : (⟨2, ![m, 1]⟩ : Shape).Idx → α)
    (h : (⟨2, ![m, 1]⟩ : Shape).Broadcasts ⟨2, ![m, n]⟩) (i : Fin m) (j : Fin n) :
    broadcastTo ⟨2, ![m, n]⟩ v h (ix2 i j) = v (ix2 i (0 : Fin 1)) := by
  refine broadcastTo_apply v h (ix2 i j) (ix2 i (0 : Fin 1)) fun ax => ?_
  match ax with
  | ⟨0, _⟩ =>
    show i.val = if m = 1 then 0 else i.val
    split
    · have := i.isLt; omega
    · rfl
  | ⟨1, _⟩ => rfl

/-- A vector kept as a column and broadcast along `n` lanes reads, at (i, j), entry `i`. -/
theorem keepdims_col_apply {α : Type} (v : (⟨1, ![m]⟩ : Shape).Idx → α) (hc : (⟨1, ![m]⟩ : Shape).ShapeCasts ⟨2, ![m, 1]⟩)
    (hb : (⟨2, ![m, 1]⟩ : Shape).Broadcasts ⟨2, ![m, n]⟩) (i : Fin m) (j : Fin n) :
    broadcastTo ⟨2, ![m, n]⟩ (shapeCast ⟨2, ![m, 1]⟩ v hc) hb (ix2 i j) = v (ix1 i) :=
  (broadcastTo_a1_ab_apply _ hb i j).trans (keepcol_apply v hc i 0)

/-- One cell broadcast to a [1, a, b] block reads the cell everywhere. -/
theorem broadcastTo_111_1ab_apply {α : Type} {a b : Nat} (v : (⟨3, ![1, 1, 1]⟩ : Shape).Idx → α)
    (h : (⟨3, ![1, 1, 1]⟩ : Shape).Broadcasts ⟨3, ![1, a, b]⟩) (q : (⟨3, ![1, a, b]⟩ : Shape).Idx) :
    broadcastTo ⟨3, ![1, a, b]⟩ v h q = v (ix3 (0 : Fin 1) (0 : Fin 1) (0 : Fin 1)) :=
  broadcastTo_apply v h q _ fun ax => match ax with
    | ⟨0, _⟩ => rfl
    | ⟨1, _⟩ => rfl
    | ⟨2, _⟩ => rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.TrailAxis

end
-- ==== Proof.KBodyCol.lean ====
/-
  One column of the distance kernel's stored block, as a function of the row numbers, the entity block,
  the query block, the absolute relation block, the query's row number and its source-index word; and
  what that column holds at one row: the word of 1e8 where the row number is the source index, and
  otherwise the weighted L1 distance  ∑_j |xa[r,j] − xe[b,j]| · ar[b,j]  of row r to query b.
-/
import proofs.«115556_j12833362280950_1_alg».proof.Proof.KBodyOut
import proofs.«115556_j12833362280950_1_alg».proof.Proof.DistSpec
import proofs.«115556_j12833362280950_1_alg».proof.Proof.LibTrailAxis
import Idealize.ShloMosaic.Lib.ValueLayout
import Idealize.ShloMosaic.Lib.Pipeline.Value

noncomputable section

open scoped BigOperators

namespace Cert.KernelIdeal.Hand

open Idealize.ShloMosaic Idealize.ShloMosaic.ValueIdx Cert.KernelIdeal Cert.KernelIdeal.Gen

/-- The weighted distances of every row of `xa` to row `o` of `xe`, weights row `o` of `ar`: subtract the
    query row from every row, take absolute values, multiply by the weight row, add up along the row. -/
def colSum (xa : FVec Ideal S2048x256 .f32) (xe ar : FVec Ideal S16x256 .f32) (o : Nat)
    (hs : S16x256.Slices ![o, 0] S1x256) : FVec Ideal S2048 .f32 :=
  multiReduction .add [1] S2048
    (mulf (absf (subf xa (broadcastTo S2048x256 (extractStridedSlice S1x256 ![o, 0] xe hs) broadcasts_S1x256_S2048x256)))
      (broadcastTo S2048x256 (extractStridedSlice S1x256 ![o, 0] ar hs) broadcasts_S1x256_S2048x256))
    0x00000000#32 reduces_S2048x256_S2048 (.inl rfl) rfl

/-- A vector of 2048 distances kept as a column, with the word of 1e8 put where the row number is `w`. -/
def colMask (rows : IVec S2048x1 32) (v : FVec Ideal S2048 .f32) (w : BitVec 32) : FVec Ideal S2048x1 .f32 :=
  select (cmpi .eq rows (broadcast S2048x1 w)) (broadcast S2048x1 (Scalar.ofBits (F := Ideal) .f32 0x4CBEBC20#32))
    (shapeCast S2048x1 v shapeCasts_S2048_S2048x1)

/-- One column of the stored block before the final logistic. -/
def col (rows : IVec S2048x1 32) (xa : FVec Ideal S2048x256 .f32) (xe ar : FVec Ideal S16x256 .f32) (o : Nat)
    (hs : S16x256.Slices ![o, 0] S1x256) (w : BitVec 32) : FVec Ideal S2048x1 .f32 :=
  colMask rows (colSum xa xe ar o hs) w

/-- The distances at row `r`: the sum along the row. -/
theorem colSum_apply (xa : FVec Ideal S2048x256 .f32) (xe ar : FVec Ideal S16x256 .f32) (o : Nat)
    (hs : S16x256.Slices ![o, 0] S1x256) (b : Fin 16) (hb : b.val = o) (r : Fin 2048) :
    colSum xa xe ar o hs (ix1 r)
      = ∑ j : Fin 256, Cert.DistSpec.eabs (xa (ix2 r j) - xe (ix2 b j)) * ar (ix2 b j) := by
  unfold colSum
  refine (Cert.TrailAxis.sum_trail_apply _ reduces_S2048x256_S2048 (.inl rfl) rfl r).trans ?_
  refine Finset.sum_congr rfl fun j _ => ?_
  rw [mulf_apply]
  show max (xa (ix2 r j) - _) (-(xa (ix2 r j) - _)) * _ = _
  rw [broadcastTo_1b_ab_apply _ broadcasts_S1x256_S2048x256 r j,
    broadcastTo_1b_ab_apply _ broadcasts_S1x256_S2048x256 r j,
    slice2_axis0_apply o xe hs (0 : Fin 1) j b (by rw [hb]; rfl),
    slice2_axis0_apply o ar hs (0 : Fin 1) j b (by rw [hb]; rfl)]
  rfl

/-- A selection on the bit of an equality test of two words is the `if` on their equality. -/
theorem select_cmpi_eq {α : Type} (x y : BitVec 32) (a c : α) :
    Scalar.select (IntOp.cmpi .eq x y) a c = if x = y then a else c := by
  show (if BitVec.ofBool (x == y) = 1#1 then a else c) = _
  by_cases h : x = y
  · rw [if_pos h, beq_iff_eq.mpr h]; exact if_pos rfl
  · rw [if_neg h, beq_eq_false_iff_ne.mpr h]; exact if_neg (by decide)

/-- The masked column at row `r`. -/
theorem colMask_apply (rows : IVec S2048x1 32) (v : FVec Ideal S2048 .f32) (w : BitVec 32) (r : Fin 2048) (u : Fin 1) :
    colMask rows v w (ix2 r u)
      = if rows (ix2 r u) = w then Ideal.ofBits .f32 0x4CBEBC20#32 else v (ix1 r) := by
  unfold colMask
  rw [select_apply]
  show Scalar.select (IntOp.cmpi .eq (rows (ix2 r u)) w) (Ideal.ofBits .f32 0x4CBEBC20#32) _ = _
  rw [select_cmpi_eq, Cert.TrailAxis.keepcol_apply v shapeCasts_S2048_S2048x1 r u]

end Cert.KernelIdeal.Hand

end
-- ==== Proof.KBodyValue.lean ====
/-
  The distance kernel's stored block read at one entry (r, b): the logistic of 12 minus the masked
  weighted L1 distance of row r of the entity block to query b.  The sixteen columns the body computes are
  one column function at the sixteen query rows; the block is their concatenation side by side.
-/
import proofs.«115556_j12833362280950_1_alg».proof.Proof.KBodyCol

noncomputable section

open scoped BigOperators

namespace Cert.KernelIdeal.Hand

open Idealize.ShloMosaic Idealize.ShloMosaic.ValueIdx Cert.KernelIdeal Cert.KernelIdeal.Gen

/-- Row `r` of the block at grid point `i` is row `i · 2048 + r` of the table. -/
theorem rows_apply (i : grid0.Coords) (r : Fin 2048) (u : Fin 1) :
    k0_pay1 i (ix2 r u) = BitVec.ofNat 32 ((i 0).val * 2048 + r.val) := by
  unfold k0_pay1
  dsimp only
  show IntOp.addi (Scalar.muli (BitVec.ofNat 32 (i 0).val) 2048#32)
    (iota .tc S2048x1 32 [0] iota_S2048x1_d0_w32 (ix2 r u)) = _
  rw [iota_single_apply, BitVec.ofNat_add, BitVec.ofNat_mul]
  rfl

/-- The absolute relation block at an entry. -/
theorem absRel_apply (xr : Vec Ideal S16x256 .f32) (b : Fin 16) (j : Fin 256) :
    k0_pay2 xr (ix2 b j) = Cert.DistSpec.eabs (xr (ix2 b j)) := by
  unfold k0_pay2
  rw [shapeCast_self]
  rfl

/-- Every query row can be cut out of the query block. -/
theorem sliceRow (n : Fin 16) : S16x256.Slices ![n.val, 0] S1x256 := by
  revert n; decide

/-- The sixteen columns: the column function at each query row with its source-index word. -/
def cols (i : grid0.Coords) (xe xr : Vec Ideal S16x256 .f32) (xa : Vec Ideal S2048x256 .f32) (w : Fin 16 → BitVec 32)
    (n : Fin 16) : FVec Ideal S2048x1 .f32 :=
  col (k0_pay1 i) xa xe (k0_pay2 xr) n.val (sliceRow n) (w n)

/-- Sixteen columns side by side make the block's shape. -/
theorem catCols (f : Fin 16 → FVec Ideal S2048x1 .f32) :
    Shape.Concatenates ((List.ofFn fun n : Fin 16 => (⟨S2048x1, f n⟩ : (s : Shape) × (s.Idx → Ideal .f32))).map (·.1))
      S2048x16 1 :=
  concatenates_S2048x1_S2048x1_S2048x1_S2048x1_S2048x1_S2048x1_S2048x1_S2048x1_S2048x1_S2048x1_S2048x1_S2048x1_S2048x1_S2048x1_S2048x1_S2048x1_S2048x16_d1

/-- The stored block is the logistic of 12 minus the sixteen columns laid side by side. -/
theorem bodyOut_eq (i : grid0.Coords) (xe xr : Vec Ideal S16x256 .f32) (xa : Vec Ideal S2048x256 .f32)
    (w : Fin 16 → BitVec 32) :
    bodyOut (F := Ideal) i xe xr xa w = fun j => Ideal.logistic (Ideal.ofBits .f32 0x41400000#32 -
      concatenate S2048x16 1 (List.ofFn fun n : Fin 16 => (⟨S2048x1, cols i xe xr xa w n⟩ : (s : Shape) × (s.Idx → Ideal .f32)))
        (catCols _) j) := rfl

theorem bodyOut_apply (i : grid0.Coords) (xe xr : Vec Ideal S16x256 .f32) (xa : Vec Ideal S2048x256 .f32)
    (w : Fin 16 → BitVec 32) (r : Fin 2048) (b : Fin 16) :
    bodyOut (F := Ideal) i xe xr xa w (ix2 r b)
      = Ideal.logistic (Ideal.ofBits .f32 0x41400000#32 -
          (if BitVec.ofNat 32 ((i 0).val * 2048 + r.val) = w b then Ideal.ofBits .f32 0x4CBEBC20#32
           else ∑ j : Fin 256, Cert.DistSpec.eabs (xa (ix2 r j) - xe (ix2 b j)) * Cert.DistSpec.eabs (xr (ix2 b j)))) := by
  rw [bodyOut_eq]
  refine congrArg (fun z => Ideal.logistic (Ideal.ofBits .f32 0x41400000#32 - z)) ?_
  refine (concatenate_ofFn_unit_apply (t := S2048x16) (s₁ := S2048x1) (1 : Fin 2) (cols i xe xr xa w) (catCols _) rfl rfl (ix2 r b) b rfl
    (ix2 r (0 : Fin 1)) (fun a ha => ?_)).trans ?_
  · match a, ha with
    | ⟨0, _⟩, _ => rfl
    | ⟨1, _⟩, h => exact absurd rfl h
  · unfold cols col
    rw [colMask_apply, rows_apply, colSum_apply xa xe (k0_pay2 xr) b.val (sliceRow b) b rfl r]
    refine congrArg (fun z => if BitVec.ofNat 32 ((i 0).val * 2048 + r.val) = w b then Ideal.ofBits .f32 0x4CBEBC20#32 else z) ?_
    exact Finset.sum_congr rfl fun j _ => by rw [absRel_apply]

/-- The entry at (r, b) reads the entity block only along its row r. -/
theorem bodyOut_row_congr (i : grid0.Coords) (xe xr : Vec Ideal S16x256 .f32) (xa xa' : Vec Ideal S2048x256 .f32)
    (w : Fin 16 → BitVec 32) (r : Fin 2048) (b : Fin 16) (h : ∀ j : Fin 256, xa (ix2 r j) = xa' (ix2 r j)) :
    bodyOut (F := Ideal) i xe xr xa w (ix2 r b) = bodyOut (F := Ideal) i xe xr xa' w (ix2 r b) := by
  rw [bodyOut_apply, bodyOut_apply]
  refine congrArg (fun z => Ideal.logistic (Ideal.ofBits .f32 0x41400000#32 -
    (if BitVec.ofNat 32 ((i 0).val * 2048 + r.val) = w b then Ideal.ofBits .f32 0x4CBEBC20#32 else z))) ?_
  exact Finset.sum_congr rfl fun j _ => by rw [h j]

end Cert.KernelIdeal.Hand

end
-- ==== Proof.KDat.lean ====
/-
  The distance kernel's run at the ideal instance, with proof data that NAME what the body leaves: the query and
  relation blocks as fetched, the entity block as fetched on the rows inside the array, and in the output's buffer
  the stored block computed from those.  The last entity block overhangs the array; what the rows past its end
  hold is not named, and the rows of the stored block inside the array do not depend on it because, over the
  extended reals, row r of the stored block is a function of row r of the entity block alone (`RowLocal`).
-/
import proofs.«115556_j12833362280950_1_alg».proof.Proof.KFrameR
import proofs.«115556_j12833362280950_1_alg».proof.Proof.KBodyValue
import Idealize.ShloMosaic.Lib.Ring
import Idealize.ShloMosaic.PureOps.Ideal
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Idealize.ShloMosaic.Ideal) ℕ (UR sig nD τ) ℕ
local notation "𝕀" => Idealize.ShloMosaic.Ideal

/-! ## What the run stored -/

/-- The sixteen words the body reads from the table, as its loads read them. -/
def wordAt (c : Dev nD) (xt0 : TbBuf0 (F := 𝕀) c tbM0_0) : Fin 16 → BitVec 32
  | ⟨0, _⟩ => tbM0_0.view.readAt (Elt 𝕀) (Rect.unit (s := S16) ![0] S1.size inb_S16_S1_0).toLoadRect xt0 (Shape.Idx.first (numel1_S1.symm ▸ Nat.one_pos))
  | ⟨1, _⟩ => tbM0_0.view.readAt (Elt 𝕀) (Rect.unit (s := S16) ![1] S1.size inb_S16_S1_1).toLoadRect xt0 (Shape.Idx.first (numel1_S1.symm ▸ Nat.one_pos))
  | ⟨2, _⟩ => tbM0_0.view.readAt (Elt 𝕀) (Rect.unit (s := S16) ![2] S1.size inb_S16_S1_2).toLoadRect xt0 (Shape.Idx.first (numel1_S1.symm ▸ Nat.one_pos))
  | ⟨3, _⟩ => tbM0_0.view.readAt (Elt 𝕀) (Rect.unit (s := S16) ![3] S1.size inb_S16_S1_3).toLoadRect xt0 (Shape.Idx.first (numel1_S1.symm ▸ Nat.one_pos))
  | ⟨4, _⟩ => tbM0_0.view.readAt (Elt 𝕀) (Rect.unit (s := S16) ![4] S1.size inb_S16_S1_4).toLoadRect xt0 (Shape.Idx.first (numel1_S1.symm ▸ Nat.one_pos))
  | ⟨5, _⟩ => tbM0_0.view.readAt (Elt 𝕀) (Rect.unit (s := S16) ![5] S1.size inb_S16_S1_5).toLoadRect xt0 (Shape.Idx.first (numel1_S1.symm ▸ Nat.one_pos))
  | ⟨6, _⟩ => tbM0_0.view.readAt (Elt 𝕀) (Rect.unit (s := S16) ![6] S1.size inb_S16_S1_6).toLoadRect xt0 (Shape.Idx.first (numel1_S1.symm ▸ Nat.one_pos))
  | ⟨7, _⟩ => tbM0_0.view.readAt (Elt 𝕀) (Rect.unit (s := S16) ![7] S1.size inb_S16_S1_7).toLoadRect xt0 (Shape.Idx.first (numel1_S1.symm ▸ Nat.one_pos))
  | ⟨8, _⟩ => tbM0_0.view.readAt (Elt 𝕀) (Rect.unit (s := S16) ![8] S1.size inb_S16_S1_8).toLoadRect xt0 (Shape.Idx.first (numel1_S1.symm ▸ Nat.one_pos))
  | ⟨9, _⟩ => tbM0_0.view.readAt (Elt 𝕀) (Rect.unit (s := S16) ![9] S1.size inb_S16_S1_9).toLoadRect xt0 (Shape.Idx.first (numel1_S1.symm ▸ Nat.one_pos))
  | ⟨10, _⟩ => tbM0_0.view.readAt (Elt 𝕀) (Rect.unit (s := S16) ![10] S1.size inb_S16_S1_10).toLoadRect xt0 (Shape.Idx.first (numel1_S1.symm ▸ Nat.one_pos))
  | ⟨11, _⟩ => tbM0_0.view.readAt (Elt 𝕀) (Rect.unit (s := S16) ![11] S1.size inb_S16_S1_11).toLoadRect xt0 (Shape.Idx.first (numel1_S1.symm ▸ Nat.one_pos))
  | ⟨12, _⟩ => tbM0_0.view.readAt (Elt 𝕀) (Rect.unit (s := S16) ![12] S1.size inb_S16_S1_12).toLoadRect xt0 (Shape.Idx.first (numel1_S1.symm ▸ Nat.one_pos))
  | ⟨13, _⟩ => tbM0_0.view.readAt (Elt 𝕀) (Rect.unit (s := S16) ![13] S1.size inb_S16_S1_13).toLoadRect xt0 (Shape.Idx.first (numel1_S1.symm ▸ Nat.one_pos))
  | ⟨14, _⟩ => tbM0_0.view.readAt (Elt 𝕀) (Rect.unit (s := S16) ![14] S1.size inb_S16_S1_14).toLoadRect xt0 (Shape.Idx.first (numel1_S1.symm ▸ Nat.one_pos))
  | ⟨15, _⟩ => tbM0_0.view.readAt (Elt 𝕀) (Rect.unit (s := S16) ![15] S1.size inb_S16_S1_15).toLoadRect xt0 (Shape.Idx.first (numel1_S1.symm ▸ Nat.one_pos))
  | ⟨_ + 16, h⟩ => absurd h (by omega)

/-- The pieces the run found cover the output block (one store of the whole block). -/
theorem cover_run (c : Dev nD) (i : grid0.Coords)
    (arg2 : Memref sig .tc .vmem S16x256 .f32) (harg2 : arg2.IsWhole) (arg3 : Memref sig .tc .vmem S16x256 .f32) (harg3 : arg3.IsWhole)
    (arg4 : Memref sig .tc .vmem S2048x256 .f32) (harg4 : arg4.IsWhole) (arg5 : Memref sig .tc .vmem S2048x16 .f32) (harg5 : arg5.IsWhole)
    (x0 x1 : Vec 𝕀 S16x256 .f32) (x2 : Vec 𝕀 S2048x256 .f32) (xt0 : TbBuf0 (F := 𝕀) c tbM0_0) (y : S2048x16.Idx) :
    ∃ pc ∈ (kernelRun (F := 𝕀) c i arg2 harg2 arg3 harg3 arg4 harg4 arg5 harg5 x0 x1 x2 xt0).1, y ∈ pc.1.set :=
  View.cover_of_wholeMem (kernelRun (F := 𝕀) c i arg2 harg2 arg3 harg3 arg4 harg4 arg5 harg5 x0 x1 x2 xt0).1 (by sl_whole_mem) y

/-- What the run's pieces leave is the stored block of the loaded values. -/
theorem run_out (c : Dev nD) (i : grid0.Coords)
    (arg2 : Memref sig .tc .vmem S16x256 .f32) (harg2 : arg2.IsWhole) (arg3 : Memref sig .tc .vmem S16x256 .f32) (harg3 : arg3.IsWhole)
    (arg4 : Memref sig .tc .vmem S2048x256 .f32) (harg4 : arg4.IsWhole) (arg5 : Memref sig .tc .vmem S2048x16 .f32) (harg5 : arg5.IsWhole)
    (x0 x1 : Vec 𝕀 S16x256 .f32) (x2 : Vec 𝕀 S2048x256 .f32) (xt0 : TbBuf0 (F := 𝕀) c tbM0_0) :
    View.canon (kernelRun (F := 𝕀) c i arg2 harg2 arg3 harg3 arg4 harg4 arg5 harg5 x0 x1 x2 xt0).1 = bodyOut i x0 x1 x2 (wordAt c xt0) := by
  have hz : (![0, 0] : Fin 2 → Nat) = fun _ => 0 := funext fun a => by fin_cases a <;> rfl
  unfold kernelRun
  dsimp only
  sl_unfold_words
  rw [View.canon_unit_zero hz]
  simp only [View.readAt_eq_ld, harg2.read_unread, harg3.read_unread, harg4.read_unread,
    View.ld_unit_zero (S := S16x256) hz, View.ld_unit_zero (S := S2048x256) hz]
  rfl

/-- Two fills of one block agree wherever the transfer moves the index. -/
theorem fill_agree {sg : RefSig} {G : Pipeline.Grid} (w : Pipeline.Window sg G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- At a moved index a fill reads the block. -/
theorem fill_moved {sg : RefSig} {G : Pipeline.Grid} (w : Pipeline.Window sg G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Pipeline.Window.fill; rw [dif_pos h]

/-! ## The schedule and the cuts, at any contents of the table -/

theorem flush0_3 (a : (pcfg0 (F := 𝕀)).Adm) : ∀ t : Fin (cfg0 a).N, ((cfg0 a).win 3).flush t = true :=
  (by decide +kernel : ∀ t : Fin grid0.N, Pipeline.Window.flushOf grid0 true cc0_transform_3 t = true)

/-- The entity window and the output window are cut alike along the rows, and the entity window is not cut along the lanes. -/
theorem xsize_rows (a : (pcfg0 (F := 𝕀)).Adm) (i : grid0.Coords) : ((cfg0 a).win 3).xsize i (0 : Fin 2) = ((cfg0 a).win 2).xsize i (0 : Fin 2) := rfl
theorem xsize_lanes (a : (pcfg0 (F := 𝕀)).Adm) (i : grid0.Coords) : ((cfg0 a).win 2).xsize i (1 : Fin 2) = 256 := rfl

variable (m : (ℓ : Loc nD τ sig) → Buf (Elt 𝕀) ℓ) (ρ : Dev nD → PrngReg)

/-! ## The blocks -/

/-- Window `w`'s block at point `t`, read off its array as the region finds it. -/
def iblk (c : Dev nD) (w : Fin (cfgM m).W) (t : Fin (cfgM m).N) :
    (((cfgM m).win w).xblock ((cfgM m).grid.coords t)).Idx → Elt 𝕀 ((cfgM m).win w).elt :=
  (((cfgM m).win w).blk t).view.read (Elt 𝕀) (V m c (Pipeline.arrRef spec0 w))

/-- The entity block at point `t` filled out to the staging block's shape with zeros past the array's end. -/
def ablk (c : Dev nD) (t : Fin (cfgM m).N) : ((cfgM m).win 2).block.Idx → Elt 𝕀 ((cfgM m).win 2).elt :=
  ((cfgM m).win 2).fill ((cfgM m).grid.coords t) (fun _ => (0 : EReal)) (iblk m c 2 t)

/-- The stored block at point `t`, computed from those. -/
def oblk (c : Dev nD) (t : Fin (cfgM m).N) : ((cfgM m).win 3).block.Idx → Elt 𝕀 ((cfgM m).win 3).elt :=
  bodyOut (F := 𝕀) (grid0.coords t) (iblk m c 0 t) (iblk m c 1 t) (ablk m c t) (wordAt c (tbl m 0))

/-- The proof data on core `c`. -/
def dats (_ : Fin 1) (c : Dev nD) : Dat τ (Elt 𝕀) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => ablk m c t
    | ⟨3, _⟩ => oblk m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = ablk m c t := by dsimp only [dats]; try rfl
theorem after0_3 (c : Dev nD) (t : Fin (cfgM m).N) : (dats m 0 c).after 3 t = oblk m c t := by dsimp only [dats]; try rfl

/-- On the rows inside the array the entity block's buffer is left holding the block. -/
theorem cut_after2 (c : Dev nD) (t : Fin (cfgM m).N) :
    ((cfgM m).win 2).cut ((cfgM m).grid.coords t) ((dats m 0 c).after 2 t) = iblk m c 2 t :=
  (congrArg (((cfgM m).win 2).cut ((cfgM m).grid.coords t)) (after0_2 m c t)).trans
    (((cfgM m).win 2).cut_fill ((cfgM m).grid.coords t) (fun _ => (0 : EReal)) (iblk m c 2 t))

/-- The query block is in its buffer at every point. -/
theorem before0 (c : Dev nD) (t : Fin (cfgM m).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
/-- So is the relation block. -/
theorem before1 (c : Dev nD) (t : Fin (cfgM m).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
/-- The entity block's buffer holds the block on the rows inside the array and anything past them. -/
theorem before2 (c : Dev nD) (t : Fin (cfgM m).N) (d) :
    (dats m 0 c).before 2 t d = ((cfgM m).win 2).fill ((cfgM m).grid.coords t) d (iblk m c 2 t) :=
  ((dats m 0 c).before_in_eq_fetched 2 rfl (fun _ => rfl)
    (fun t t' h => funext fun a => congrArg (fun n => Pipeline.Clip.of n (S2048x256.size a) (S14541x256.size a)) (congrFun h a))
    (fun t => (cut_after2 m c t).trans (by unfold Dat.blockOf iblk; rw [A_eq])) t d).trans
    (by unfold Dat.fetched Dat.blockOf iblk; rw [A_eq])
/-- The output's buffer holds nothing named: every point writes it back. -/
theorem before3 (c : Dev nD) (t : Fin (cfgM m).N) (d) : (dats m 0 c).before 3 t d = d :=
  (dats m 0 c).before_out_reset 3 rfl t
    ((Nat.eq_zero_or_pos t.val).imp id fun hp => ⟨Nat.pos_iff_ne_zero.mp hp, flush0_3 (adm m) _⟩) d

/-! ## The body obligation -/

/-- The body at every point: the run applies to what the buffers hold; the two resident blocks and the entity
    block come back as they were, and the output's buffer holds the stored block, which on the rows inside the
    array is the stored block of the zero-filled entity block. -/
theorem body_obligation (c : Dev nD) :
    BodyObligationLoose (dats m 0 c) (defs₀ (F := 𝕀)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  rw [show (dats m 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩⟩
  rw [before0 m c t d0, before1 m c t d1, before2 m c t d2, before3 m c t d3]
  iapply ((kernelRun (F := 𝕀) c (grid0.coords t) (ms0 m t) (hs0 m t) (ms1 m t) (hs1 m t) (ms2 m t) (hs2 m t) (ms3 m t) (hs3 m t)
    (iblk m c 0 t) (iblk m c 1 t) (((cfgM m).win 2).fill ((cfgM m).grid.coords t) d2 (iblk m c 2 t)) (tbl m 0)).2 Set.univ _)
  isplitl [H0]; · iexact H0
  isplitl [H1]; · iexact H1
  isplitl [H2]; · iexact H2
  isplitl [H3]; · iexists _; iexact H3
  isplitl [HT0]; · iexact HT0
  iintro ⟨H0, H1, H2, ⟨%e3, H3⟩, HT0⟩
  isplitl [HΦ HT0]
  · isplitl [HΦ]; · iexact HΦ
    iexact HT0
  isplitl [Ho]; · iexact Ho
  isplitl [H0]; · rw [after0_0]; iexact H0
  isplitl [H1]; · rw [after0_1]; iexact H1
  isplitl [H2]
  · iexists d2
    change _ ⊢ owns (c : Thread nD τ) (ms2 m t) fullShare (((cfgM m).win 2).fill ((cfgM m).grid.coords t) d2
      (((cfgM m).win 2).cut ((cfgM m).grid.coords t) ((dats m 0 c).after 2 t)))
    rw [cut_after2 m c t]
    try iexact H2
  · iexists (bodyOut (F := 𝕀) (grid0.coords t) (iblk m c 0 t) (iblk m c 1 t)
      (((cfgM m).win 2).fill ((cfgM m).grid.coords t) d2 (iblk m c 2 t)) (wordAt c (tbl m 0)))
    unfold owns; iexists _; isplitr
    swap; · iexact H3
    ipureintro
    refine ((ms3 m t).view.read_writes_eq_canon e3 _ (cover_run c _ _ _ _ _ _ _ _ _ _ _ _ _)).trans ?_
    refine (run_out c (grid0.coords t) (ms0 m t) (hs0 m t) (ms1 m t) (hs1 m t) (ms2 m t) (hs2 m t) (ms3 m t) (hs3 m t) _ _ _ _).trans ?_
    refine (((cfgM m).win 3).fill_congr_cut ((cfgM m).grid.coords t) ?_).symm
    funext y
    have hxy := eq_ix2 (n0 := 2048) (n1 := 16) (((cfgM m).win 3).xinj ((cfgM m).grid.coords t) y)
    show bodyOut (F := 𝕀) (grid0.coords t) (iblk m c 0 t) (iblk m c 1 t)
        (((cfgM m).win 2).fill ((cfgM m).grid.coords t) d2 (iblk m c 2 t)) (wordAt c (tbl m 0)) (((cfgM m).win 3).xinj ((cfgM m).grid.coords t) y)
      = (dats m 0 c).after 3 t (((cfgM m).win 3).xinj ((cfgM m).grid.coords t) y)
    rw [after0_3, hxy]
    unfold oblk
    refine bodyOut_row_congr (grid0.coords t) _ _ _ _ _ _ _ fun j => ?_
    have hm : ((cfgM m).win 2).moved ((cfgM m).grid.coords t)
        (ix2 (((cfgM m).win 3).xinj ((cfgM m).grid.coords t) y (0 : Fin 2)) j) = true :=
      (((cfgM m).win 2).moved_iff _ _).mpr (Fin.forall_fin_two.mpr
        ⟨lt_of_lt_of_eq (y (0 : Fin 2)).isLt (xsize_rows (adm m) _), lt_of_lt_of_eq j.isLt (xsize_lanes (adm m) _).symm⟩)
    unfold ablk
    exact fill_agree _ _ _ _ _ _ hm

end Cert.KernelIdeal.Hand

end
-- ==== Proof.KValue.lean ====
/-
  What the distance kernel's output array holds after the region, at the ideal instance: the score table of the
  arrays as the region finds them.  Each point's write-back writes, on the rows of its block that lie inside the
  array, the stored block's rows; entry (r, b) of the stored block is the score of entity row (point · 2048 + r)
  against query b, because the entity block's row r is that entity row, the query and relation blocks are the whole
  arrays, and the table word b is the source index b.  The eight blocks cover the array's 14541 rows.
-/
import proofs.«115556_j12833362280950_1_alg».proof.Proof.KDat

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕀" => Idealize.ShloMosaic.Ideal

/-! ## Entries of the specification and of the stored block, compared -/

/-- An entry of the score table, spelt out. -/
theorem score_ix2 (emb rel : FVec 𝕀 ⟨2, ![16, 256]⟩ .f32) (all : FVec 𝕀 ⟨2, ![14541, 256]⟩ .f32) (src : IVec ⟨1, ![16]⟩ 32)
    (n : Fin 14541) (b : Fin 16) :
    Cert.DistSpec.score emb rel all src (ix2 n b)
      = Ideal.logistic (Ideal.ofBits .f32 0x41400000#32 -
          (if BitVec.ofNat 32 n.val = src (ix1 b) then Ideal.ofBits .f32 0x4CBEBC20#32
           else ∑ j : Fin 256, Cert.DistSpec.eabs (all (ix2 n j) - emb (ix2 b j)) * Cert.DistSpec.eabs (rel (ix2 b j)))) := rfl

/-- Two such entries agree when their conditions and their summands do. -/
theorem entry_congr {p q : Prop} [Decidable p] [Decidable q] (hpq : p ↔ q) {f g : Fin 256 → EReal} (hfg : ∀ j, f j = g j) (T B : EReal) :
    Ideal.logistic (T - (if p then B else ∑ j : Fin 256, f j)) = Ideal.logistic (T - (if q then B else ∑ j : Fin 256, g j)) := by
  rw [show (∑ j : Fin 256, f j) = ∑ j : Fin 256, g j from Finset.sum_congr rfl fun j _ => hfg j]
  by_cases h : p
  · rw [if_pos h, if_pos (hpq.mp h)]
  · rw [if_neg h, if_neg (fun hq => h (hpq.mpr hq))]

/-- The sixteen table words are the table's sixteen entries. -/
theorem wordAt_eq (c : Dev nD) (xt0 : TbBuf0 (F := 𝕀) c tbM0_0) : ∀ b : Fin 16, wordAt c xt0 b = (xt0 : S16.Idx → BitVec 32) (ix1 b)
  | ⟨0, _⟩ => by
    show tbM0_0.view.readAt (Elt 𝕀) (Rect.unit (s := S16) ![0] S1.size inb_S16_S1_0).toLoadRect xt0 (Shape.Idx.first (numel1_S1.symm ▸ Nat.one_pos)) = _
    simp only [View.readAt_apply, Memref.view_whole, View.read_whole]
    exact congrArg xt0 (funext fun d => by fin_cases d; rfl)
  | ⟨1, _⟩ => by
    show tbM0_0.view.readAt (Elt 𝕀) (Rect.unit (s := S16) ![1] S1.size inb_S16_S1_1).toLoadRect xt0 (Shape.Idx.first (numel1_S1.symm ▸ Nat.one_pos)) = _
    simp only [View.readAt_apply, Memref.view_whole, View.read_whole]
    exact congrArg xt0 (funext fun d => by fin_cases d; rfl)
  | ⟨2, _⟩ => by
    show tbM0_0.view.readAt (Elt 𝕀) (Rect.unit (s := S16) ![2] S1.size inb_S16_S1_2).toLoadRect xt0 (Shape.Idx.first (numel1_S1.symm ▸ Nat.one_pos)) = _
    simp only [View.readAt_apply, Memref.view_whole, View.read_whole]
    exact congrArg xt0 (funext fun d => by fin_cases d; rfl)
  | ⟨3, _⟩ => by
    show tbM0_0.view.readAt (Elt 𝕀) (Rect.unit (s := S16) ![3] S1.size inb_S16_S1_3).toLoadRect xt0 (Shape.Idx.first (numel1_S1.symm ▸ Nat.one_pos)) = _
    simp only [View.readAt_apply, Memref.view_whole, View.read_whole]
    exact congrArg xt0 (funext fun d => by fin_cases d; rfl)
  | ⟨4, _⟩ => by
    show tbM0_0.view.readAt (Elt 𝕀) (Rect.unit (s := S16) ![4] S1.size inb_S16_S1_4).toLoadRect xt0 (Shape.Idx.first (numel1_S1.symm ▸ Nat.one_pos)) = _
    simp only [View.readAt_apply, Memref.view_whole, View.read_whole]
    exact congrArg xt0 (funext fun d => by fin_cases d; rfl)
  | ⟨5, _⟩ => by
    show tbM0_0.view.readAt (Elt 𝕀) (Rect.unit (s := S16) ![5] S1.size inb_S16_S1_5).toLoadRect xt0 (Shape.Idx.first (numel1_S1.symm ▸ Nat.one_pos)) = _
    simp only [View.readAt_apply, Memref.view_whole, View.read_whole]
    exact congrArg xt0 (funext fun d => by fin_cases d; rfl)
  | ⟨6, _⟩ => by
    show tbM0_0.view.readAt (Elt 𝕀) (Rect.unit (s := S16) ![6] S1.size inb_S16_S1_6).toLoadRect xt0 (Shape.Idx.first (numel1_S1.symm ▸ Nat.one_pos)) = _
    simp only [View.readAt_apply, Memref.view_whole, View.read_whole]
    exact congrArg xt0 (funext fun d => by fin_cases d; rfl)
  | ⟨7, _⟩ => by
    show tbM0_0.view.readAt (Elt 𝕀) (Rect.unit (s := S16) ![7] S1.size inb_S16_S1_7).toLoadRect xt0 (Shape.Idx.first (numel1_S1.symm ▸ Nat.one_pos)) = _
    simp only [View.readAt_apply, Memref.view_whole, View.read_whole]
    exact congrArg xt0 (funext fun d => by fin_cases d; rfl)
  | ⟨8, _⟩ => by
    show tbM0_0.view.readAt (Elt 𝕀) (Rect.unit (s := S16) ![8] S1.size inb_S16_S1_8).toLoadRect xt0 (Shape.Idx.first (numel1_S1.symm ▸ Nat.one_pos)) = _
    simp only [View.readAt_apply, Memref.view_whole, View.read_whole]
    exact congrArg xt0 (funext fun d => by fin_cases d; rfl)
  | ⟨9, _⟩ => by
    show tbM0_0.view.readAt (Elt 𝕀) (Rect.unit (s := S16) ![9] S1.size inb_S16_S1_9).toLoadRect xt0 (Shape.Idx.first (numel1_S1.symm ▸ Nat.one_pos)) = _
    simp only [View.readAt_apply, Memref.view_whole, View.read_whole]
    exact congrArg xt0 (funext fun d => by fin_cases d; rfl)
  | ⟨10, _⟩ => by
    show tbM0_0.view.readAt (Elt 𝕀) (Rect.unit (s := S16) ![10] S1.size inb_S16_S1_10).toLoadRect xt0 (Shape.Idx.first (numel1_S1.symm ▸ Nat.one_pos)) = _
    simp only [View.readAt_apply, Memref.view_whole, View.read_whole]
    exact congrArg xt0 (funext fun d => by fin_cases d; rfl)
  | ⟨11, _⟩ => by
    show tbM0_0.view.readAt (Elt 𝕀) (Rect.unit (s := S16) ![11] S1.size inb_S16_S1_11).toLoadRect xt0 (Shape.Idx.first (numel1_S1.symm ▸ Nat.one_pos)) = _
    simp only [View.readAt_apply, Memref.view_whole, View.read_whole]
    exact congrArg xt0 (funext fun d => by fin_cases d; rfl)
  | ⟨12, _⟩ => by
    show tbM0_0.view.readAt (Elt 𝕀) (Rect.unit (s := S16) ![12] S1.size inb_S16_S1_12).toLoadRect xt0 (Shape.Idx.first (numel1_S1.symm ▸ Nat.one_pos)) = _
    simp only [View.readAt_apply, Memref.view_whole, View.read_whole]
    exact congrArg xt0 (funext fun d => by fin_cases d; rfl)
  | ⟨13, _⟩ => by
    show tbM0_0.view.readAt (Elt 𝕀) (Rect.unit (s := S16) ![13] S1.size inb_S16_S1_13).toLoadRect xt0 (Shape.Idx.first (numel1_S1.symm ▸ Nat.one_pos)) = _
    simp only [View.readAt_apply, Memref.view_whole, View.read_whole]
    exact congrArg xt0 (funext fun d => by fin_cases d; rfl)
  | ⟨14, _⟩ => by
    show tbM0_0.view.readAt (Elt 𝕀) (Rect.unit (s := S16) ![14] S1.size inb_S16_S1_14).toLoadRect xt0 (Shape.Idx.first (numel1_S1.symm ▸ Nat.one_pos)) = _
    simp only [View.readAt_apply, Memref.view_whole, View.read_whole]
    exact congrArg xt0 (funext fun d => by fin_cases d; rfl)
  | ⟨15, _⟩ => by
    show tbM0_0.view.readAt (Elt 𝕀) (Rect.unit (s := S16) ![15] S1.size inb_S16_S1_15).toLoadRect xt0 (Shape.Idx.first (numel1_S1.symm ▸ Nat.one_pos)) = _
    simp only [View.readAt_apply, Memref.view_whole, View.read_whole]
    exact congrArg xt0 (funext fun d => by fin_cases d; rfl)
  | ⟨_ + 16, h⟩ => absurd h (by omega)

/-! ## The index maps over the grid -/

theorem ix_rows : ∀ t : Fin grid0.N,
    (cc0_transform_0 (grid0.coords t) (0 : Fin 2) = 0 ∧ cc0_transform_0 (grid0.coords t) (1 : Fin 2) = 0)
    ∧ (cc0_transform_1 (grid0.coords t) (0 : Fin 2) = 0 ∧ cc0_transform_1 (grid0.coords t) (1 : Fin 2) = 0)
    ∧ (cc0_transform_2 (grid0.coords t) (0 : Fin 2) = (grid0.coords t (0 : Fin 1)).val ∧ cc0_transform_2 (grid0.coords t) (1 : Fin 2) = 0)
    ∧ (cc0_transform_3 (grid0.coords t) (0 : Fin 2) = (grid0.coords t (0 : Fin 1)).val ∧ cc0_transform_3 (grid0.coords t) (1 : Fin 2) = 0) := by
  decide +kernel

variable (m : (ℓ : Loc nD τ sig) → Buf (Elt 𝕀) ℓ) (ρ : Dev nD → PrngReg)

/-! ## The blocks as rows of the arrays -/

/-- The query block is the whole query array. -/
theorem iblk0_apply (c : Dev nD) (t : Fin (cfgM m).N) (b : Fin 16) (j : Fin 256) :
    (iblk m c 0 t : S16x256.Idx → EReal) (ix2 b j) = (V m c main_arg0 : S16x256.Idx → EReal) (ix2 b j) := by
  have hi := (ix_rows t).1
  show V m c main_arg0 ((((cfgM m).win 0).blk t).view.emb (ix2 b j)) = V m c main_arg0 (ix2 b j)
  refine congrArg (V m c main_arg0) (funext fun a => Fin.ext ?_)
  revert a
  refine Fin.forall_fin_two.mpr ⟨?_, ?_⟩
  · show cc0_transform_0 (grid0.coords t) (0 : Fin 2) * 16 + 1 * b.val = b.val
    rw [hi.1]; omega
  · show cc0_transform_0 (grid0.coords t) (1 : Fin 2) * 256 + 1 * j.val = j.val
    rw [hi.2]; omega

/-- The relation block is the whole relation array. -/
theorem iblk1_apply (c : Dev nD) (t : Fin (cfgM m).N) (b : Fin 16) (j : Fin 256) :
    (iblk m c 1 t : S16x256.Idx → EReal) (ix2 b j) = (V m c main_v6 : S16x256.Idx → EReal) (ix2 b j) := by
  have hi := (ix_rows t).2.1
  show V m c main_v6 ((((cfgM m).win 1).blk t).view.emb (ix2 b j)) = V m c main_v6 (ix2 b j)
  refine congrArg (V m c main_v6) (funext fun a => Fin.ext ?_)
  revert a
  refine Fin.forall_fin_two.mpr ⟨?_, ?_⟩
  · show cc0_transform_1 (grid0.coords t) (0 : Fin 2) * 16 + 1 * b.val = b.val
    rw [hi.1]; omega
  · show cc0_transform_1 (grid0.coords t) (1 : Fin 2) * 256 + 1 * j.val = j.val
    rw [hi.2]; omega

/-- Row r of the entity block at point t, when it lies inside the array, is entity row (t · 2048 + r). -/
theorem ablk_apply (c : Dev nD) (t : Fin (cfgM m).N) (r : Fin 2048) (j : Fin 256) (n : Fin 14541)
    (hn : n.val = (grid0.coords t (0 : Fin 1)).val * 2048 + r.val)
    (hr : r.val < ((cfgM m).win 2).xsize ((cfgM m).grid.coords t) (0 : Fin 2)) :
    (ablk m c t : S2048x256.Idx → EReal) (ix2 r j) = (V m c main_arg1 : S14541x256.Idx → EReal) (ix2 n j) := by
  have hi := (ix_rows t).2.2.1
  have hm : ((cfgM m).win 2).moved ((cfgM m).grid.coords t) (ix2 r j) = true :=
    (((cfgM m).win 2).moved_iff _ _).mpr (Fin.forall_fin_two.mpr ⟨hr, lt_of_lt_of_eq j.isLt (xsize_lanes (adm m) _).symm⟩)
  unfold ablk
  refine (fill_moved _ _ _ _ _ hm).trans ?_
  show V m c main_arg1 ((((cfgM m).win 2).blk t).view.emb _) = V m c main_arg1 (ix2 n j)
  refine congrArg (V m c main_arg1) (funext fun a => Fin.ext ?_)
  revert a
  refine Fin.forall_fin_two.mpr ⟨?_, ?_⟩
  · show cc0_transform_2 (grid0.coords t) (0 : Fin 2) * 2048 + 1 * r.val = n.val
    rw [hi.1, hn]; omega
  · show cc0_transform_2 (grid0.coords t) (1 : Fin 2) * 256 + 1 * j.val = j.val
    rw [hi.2]; omega

/-! ## The output array -/

/-- The score table of the arrays as the region finds them. -/
def G7 (c : Dev nD) : Buf (Elt 𝕀) (((cfgM m).win 3).arr.view.loc (c.tc : Thread nD τ)) :=
  Cert.DistSpec.score (V m c main_arg0) (V m c main_v6) (V m c main_arg1) (V m c main_arg3)

/-- Each write-back writes the score table's block. -/
theorem flushed_eq (c : Dev nD) (t : Fin (cfgM m).N) (hf : ((cfgM m).win 3).flush t = true) :
    (dats m 0 c).flushed 3 t = (((cfgM m).win 3).blk t).view.read (Elt 𝕀) (G7 m c) := by
  have hi := (ix_rows t).2.2.2
  funext y
  have hxy := eq_ix2 (n0 := 2048) (n1 := 16) (((cfgM m).win 3).xinj ((cfgM m).grid.coords t) y)
  have hemb := eq_ix2 (n0 := 14541) (n1 := 16) ((((cfgM m).win 3).blk t).view.emb y)
  have hn : ((((cfgM m).win 3).blk t).view.emb y (0 : Fin 2)).val
      = (grid0.coords t (0 : Fin 1)).val * 2048 + (((cfgM m).win 3).xinj ((cfgM m).grid.coords t) y (0 : Fin 2)).val := by
    show cc0_transform_3 (grid0.coords t) (0 : Fin 2) * 2048 + 1 * (y (0 : Fin 2)).val = _ * 2048 + (y (0 : Fin 2)).val
    rw [hi.1]; omega
  have hb : ((((cfgM m).win 3).blk t).view.emb y (1 : Fin 2)) = (((cfgM m).win 3).xinj ((cfgM m).grid.coords t) y (1 : Fin 2)) :=
    Fin.ext (by
      show cc0_transform_3 (grid0.coords t) (1 : Fin 2) * 16 + 1 * (y (1 : Fin 2)).val = (y (1 : Fin 2)).val
      rw [hi.2]; omega)
  show (dats m 0 c).after 3 t (((cfgM m).win 3).xinj ((cfgM m).grid.coords t) y) = G7 m c ((((cfgM m).win 3).blk t).view.emb y)
  rw [after0_3, hxy, hemb, hb]
  unfold oblk G7
  refine (bodyOut_apply _ _ _ _ _ _ _).trans ((entry_congr ?_ (fun j => ?_) _ _).trans (score_ix2 _ _ _ _ _ _).symm)
  · have e1 : wordAt c (tbl m 0) (((cfgM m).win 3).xinj ((cfgM m).grid.coords t) y (1 : Fin 2))
        = (V m c main_arg3 : S16.Idx → BitVec 32) (ix1 (((cfgM m).win 3).xinj ((cfgM m).grid.coords t) y (1 : Fin 2))) :=
      (wordAt_eq c (tbl m 0) _).trans (congrFun (V_pre m c 0).symm _)
    have e2 := congrArg (BitVec.ofNat 32) hn
    exact ⟨fun h => e2.trans (h.trans e1), fun h => e2.symm.trans (h.trans e1.symm)⟩
  · exact congrArg₂ (fun u v => Cert.DistSpec.eabs u * Cert.DistSpec.eabs v)
      (congrArg₂ (fun u v : EReal => u - v)
        (ablk_apply m c t _ j _ hn (lt_of_lt_of_eq (y (0 : Fin 2)).isLt (xsize_rows (adm m) _)))
        (iblk0_apply m c t _ j))
      (iblk1_apply m c t _ j)

/-- Every point of the grid is its own coordinate. -/
theorem coords_val : ∀ t : Fin grid0.N, (grid0.coords t (0 : Fin 1)).val = t.val := by decide +kernel

/-- The eight blocks cover the array: row i₀ lies in the block of point i₀ / 2048, the last block being cut at the array's end. -/
theorem cover7 (c : Dev nD) (i : (((cfgM m).win 3).arr.view.loc (c.tc : Thread nD τ)).2.ty.Idx) :
    ∃ t : Fin (cfgM m).N, ((cfgM m).win 3).flush t = true ∧ i ∈ (((cfgM m).win 3).blk t).view.set := by
  have h0 : (i (0 : Fin 2)).val < 14541 := (i (0 : Fin 2)).isLt
  have h1 : (i (1 : Fin 2)).val < 16 := (i (1 : Fin 2)).isLt
  have hN : grid0.N = 8 := N_0
  obtain ⟨t, htv⟩ : ∃ t : Fin grid0.N, t.val = (i (0 : Fin 2)).val / 2048 := ⟨⟨(i (0 : Fin 2)).val / 2048, by rw [hN]; omega⟩, rfl⟩
  have hi := (ix_rows t).2.2.2
  have hc := coords_val t
  refine ⟨t, flush0_3 (adm m) t, ?_⟩
  show i ∈ ((View.whole main_v7).slice (((cfgM m).win 3).rect t)).set
  refine Eq.mpr (congrArg (fun s => i ∈ s) (View.set_slice_whole main_v7 (((cfgM m).win 3).rect t))) (Rect.mem_set_unit.mpr ?_)
  refine Fin.forall_fin_two.mpr ⟨?_, ?_⟩
  · show cc0_transform_3 (grid0.coords t) (0 : Fin 2) * 2048 ≤ (i (0 : Fin 2)).val
        ∧ (i (0 : Fin 2)).val < cc0_transform_3 (grid0.coords t) (0 : Fin 2) * 2048
            + (Pipeline.Clip.of (cc0_transform_3 (grid0.coords t) (0 : Fin 2)) 2048 14541).extent 2048
    rw [hi.1, hc, htv]
    unfold Pipeline.Clip.of
    split <;> simp only [Pipeline.Clip.extent] <;> omega
  · show cc0_transform_3 (grid0.coords t) (1 : Fin 2) * 16 ≤ (i (1 : Fin 2)).val
        ∧ (i (1 : Fin 2)).val < cc0_transform_3 (grid0.coords t) (1 : Fin 2) * 16
            + (Pipeline.Clip.of (cc0_transform_3 (grid0.coords t) (1 : Fin 2)) 16 16).extent 16
    rw [hi.2]
    unfold Pipeline.Clip.of
    split <;> simp only [Pipeline.Clip.extent] <;> omega

/-- So the output array ends holding the score table. -/
theorem final7 (c : Dev nD) : (dats m 0 c).arrAt 3 (cfgM m).N = G7 m c :=
  (dats m 0 c).arrAt_eq_of_cover 3 (G7 m c) (flushed_eq m c) (cover7 m c)

end Cert.KernelIdeal.Hand

end
-- ==== Proof.KRun.lean ====
/-
  The distance program's run at the ideal instance, read: every weakly fair execution of @main terminates without
  a fault; the result array holds the lines after the region applied to the score table of the launch arrays
  (the relation rows being the relation table gathered at the wrapped relation ids); the eight argument arrays are
  as launched.
-/
import proofs.«115556_j12833362280950_1_alg».proof.Proof.KValue

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕀" => Idealize.ShloMosaic.Ideal

/-- The relation rows as the kernel's host lines compute them. -/
def kRel (a2 : FVec 𝕀 S237x256 .f32) (a4 : IVec S16 32) : FVec 𝕀 S16x256 .f32 :=
  Host.gather gather_S237x256_S16x1_S16x256_1_0_n_n_0_1_1256 a2 (broadcastInDim S16x1 ![0] bcast_S16_S16x1_0 (select (cmpi .slt a4 (broadcastInDim S16 ![] bcast_S_S16 (constantI S_ 32 0#32))) (addi a4 (broadcastInDim S16 ![] bcast_S_S16 (constantI S_ 32 237#32))) a4))

/-- The lines after the region as one function of the score table and the integer arguments. -/
def kTail (x : FVec 𝕀 S14541x16 .f32) (a4 : IVec S16 32) (a5 a6 a7 : IVec S272115 32) : FVec 𝕀 S16x14541 .f32 :=
  transpose S16x14541 [1, 0] (Host.scatterAdd scatter_S14541x16_S272115x1_S272115x16_1_0_0_1 (broadcastInDim S14541x16 ![] bcast_S_S14541x16 (constant S_ .f32 0x00000000#32)) (broadcastInDim S272115x1 ![0] bcast_S272115_S272115x1_0 a6) (mulf (Host.gather gather_S14541x16_S272115x1_S272115x16_1_0_n_n_0_1_116 x (broadcastInDim S272115x1 ![0] bcast_S272115_S272115x1_0 (select (cmpi .slt a5 (broadcastInDim S272115 ![] bcast_S_S272115 (constantI S_ 32 0#32))) (addi a5 (broadcastInDim S272115 ![] bcast_S_S272115 (constantI S_ 32 14541#32))) a5))) (uitofp .f32 (cmpi .eq (broadcastInDim S272115x16 ![0, 1] bcast_S272115x1_S272115x16_0_1 (broadcastInDim S272115x1 ![0] bcast_S272115_S272115x1_0 a7)) (broadcastInDim S272115x16 ![0, 1] bcast_S1x16_S272115x16_0_1 (broadcastInDim S1x16 ![1] bcast_S16_S1x16_1 a4)))))) transposes_S14541x16_S16x14541_1_0

theorem kTail_congr {x x' : FVec 𝕀 S14541x16 .f32} {a4 a4' : IVec S16 32} {a5 a5' a6 a6' a7 a7' : IVec S272115 32}
    (hx : x = x') (h4 : a4 = a4') (h5 : a5 = a5') (h6 : a6 = a6') (h7 : a7 = a7') :
    kTail x a4 a5 a6 a7 = kTail x' a4' a5' a6' a7' := by
  subst hx h4 h5 h6 h7; rfl

set_option maxRecDepth 8192 in
set_option maxHeartbeats 16000000 in
/-- The later lines, run from any contents of the buffers, leave the result at that function of five of them. -/
theorem tail_after (W : Valuation τ sig (Elt 𝕀)) :
    StableHlo.after (List.flatten [hostOps1]) W (Proc.devRef .tc main_v25)
      = kTail (W (Proc.devRef .tc main_v7)) (W (Proc.devRef .tc main_arg4)) (W (Proc.devRef .tc main_arg5))
          (W (Proc.devRef .tc main_arg6)) (W (Proc.devRef .tc main_arg7)) := by
  simp only [hostOps1, List.flatten_cons, List.flatten_nil, List.append_nil]
  after_results_simp <;> rfl

variable (m : (ℓ : Loc nD τ sig) → Buf (Elt 𝕀) ℓ) (ρ : Dev nD → PrngReg)

set_option backward.isDefEq.respectTransparency.types false in
/-- The run, with every window's array at what the proof data compute and every other unscoped buffer at what the
    later lines leave. -/
theorem run_main : θ_run defs (onTc (τ := τ) (main (F := 𝕀))) (s₀ m ρ)
    (Pipeline.FramePost (Pipeline.pin pcfgs fun _ => adm m) (dats m) 0 (Pipeline.afterTail pcfgs (fun _ => adm m) (dats m) 0 (V0 m) [hostOps1])) :=
  Pipeline.θ_run_frameP_around pcfgs (fun _ => adm m) (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m) (hΦ := fun _ _ => rfl)

/-- The relation rows the region finds are the gathered rows of the launch arrays. -/
theorem V_main_v6 (c : Dev nD) : V m c main_v6 = kRel (m ((c : Thread nD τ).loc main_arg2)) (m ((c : Thread nD τ).loc main_arg4)) := by
  show StableHlo.after hostOps0 (fun b => m (c, b)) (Proc.devRef .tc main_v6) = _
  after_results
  rfl

/-- The score table the region leaves, over the launch arrays. -/
theorem G7_eq (c : Dev nD) : G7 m c = Cert.DistSpec.score (m ((c : Thread nD τ).loc main_arg0))
    (kRel (m ((c : Thread nD τ).loc main_arg2)) (m ((c : Thread nD τ).loc main_arg4))) (m ((c : Thread nD τ).loc main_arg1)) (m ((c : Thread nD τ).loc main_arg3)) := by
  unfold G7
  rw [V_main_arg0, V_main_v6, V_main_arg1, V_main_arg3]

/-- The result after the later lines. -/
theorem tail_v25 (c : Dev nD) :
    Pipeline.afterTail pcfgs (fun _ => adm m) (dats m) 0 (V0 m) [hostOps1] c main_v25
      = kTail (Cert.DistSpec.score (m ((c : Thread nD τ).loc main_arg0))
          (kRel (m ((c : Thread nD τ).loc main_arg2)) (m ((c : Thread nD τ).loc main_arg4))) (m ((c : Thread nD τ).loc main_arg1)) (m ((c : Thread nD τ).loc main_arg3)))
          (m ((c : Thread nD τ).loc main_arg4)) (m ((c : Thread nD τ).loc main_arg5)) (m ((c : Thread nD τ).loc main_arg6)) (m ((c : Thread nD τ).loc main_arg7)) := by
  unfold Pipeline.afterTail
  refine (tail_after _).trans (kTail_congr ?_ ?_ ?_ ?_ ?_)
  · exact (Pipeline.withArrays_arr _ (launch0 (F := 𝕀)).win.arr_inj c (V0 m c) (fun w => (dats m 0 c).arrAt w (cfgM m).N) (3 : Fin 4)).trans ((final7 m c).trans (G7_eq m c))
  · exact (Pipeline.withArrays_of_ne _ c (V0 m c) _ main_arg4 (by exact (by decide : ∀ w, Pipeline.arrRef spec0 w ≠ main_arg4))).trans (V_main_arg4 m c)
  · exact (Pipeline.withArrays_of_ne _ c (V0 m c) _ main_arg5 (by exact (by decide : ∀ w, Pipeline.arrRef spec0 w ≠ main_arg5))).trans (V_main_arg5 m c)
  · exact (Pipeline.withArrays_of_ne _ c (V0 m c) _ main_arg6 (by exact (by decide : ∀ w, Pipeline.arrRef spec0 w ≠ main_arg6))).trans (V_main_arg6 m c)
  · exact (Pipeline.withArrays_of_ne _ c (V0 m c) _ main_arg7 (by exact (by decide : ∀ w, Pipeline.arrRef spec0 w ≠ main_arg7))).trans (V_main_arg7 m c)

/-- Neither the region nor the later lines write `main_arg2`. -/
theorem W_main_arg2 (c : Dev nD) : Pipeline.afterTail pcfgs (fun _ => adm m) (dats m) 0 (V0 m) [hostOps1] c main_arg2 = m ((c : Thread nD τ).loc main_arg2) := by
  unfold Pipeline.afterTail
  exact (StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((Pipeline.withArrays_of_ne _ c (V0 m c) _ main_arg2 (by exact (by decide : ∀ w, Pipeline.arrRef spec0 w ≠ main_arg2))).trans (V_main_arg2 m c))

/-- Neither the region nor the later lines write `main_arg3`. -/
theorem W_main_arg3 (c : Dev nD) : Pipeline.afterTail pcfgs (fun _ => adm m) (dats m) 0 (V0 m) [hostOps1] c main_arg3 = m ((c : Thread nD τ).loc main_arg3) := by
  unfold Pipeline.afterTail
  exact (StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((Pipeline.withArrays_of_ne _ c (V0 m c) _ main_arg3 (by exact (by decide : ∀ w, Pipeline.arrRef spec0 w ≠ main_arg3))).trans (V_main_arg3 m c))

/-- Neither the region nor the later lines write `main_arg4`. -/
theorem W_main_arg4 (c : Dev nD) : Pipeline.afterTail pcfgs (fun _ => adm m) (dats m) 0 (V0 m) [hostOps1] c main_arg4 = m ((c : Thread nD τ).loc main_arg4) := by
  unfold Pipeline.afterTail
  exact (StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((Pipeline.withArrays_of_ne _ c (V0 m c) _ main_arg4 (by exact (by decide : ∀ w, Pipeline.arrRef spec0 w ≠ main_arg4))).trans (V_main_arg4 m c))

/-- Neither the region nor the later lines write `main_arg5`. -/
theorem W_main_arg5 (c : Dev nD) : Pipeline.afterTail pcfgs (fun _ => adm m) (dats m) 0 (V0 m) [hostOps1] c main_arg5 = m ((c : Thread nD τ).loc main_arg5) := by
  unfold Pipeline.afterTail
  exact (StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((Pipeline.withArrays_of_ne _ c (V0 m c) _ main_arg5 (by exact (by decide : ∀ w, Pipeline.arrRef spec0 w ≠ main_arg5))).trans (V_main_arg5 m c))

/-- Neither the region nor the later lines write `main_arg6`. -/
theorem W_main_arg6 (c : Dev nD) : Pipeline.afterTail pcfgs (fun _ => adm m) (dats m) 0 (V0 m) [hostOps1] c main_arg6 = m ((c : Thread nD τ).loc main_arg6) := by
  unfold Pipeline.afterTail
  exact (StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((Pipeline.withArrays_of_ne _ c (V0 m c) _ main_arg6 (by exact (by decide : ∀ w, Pipeline.arrRef spec0 w ≠ main_arg6))).trans (V_main_arg6 m c))

/-- Neither the region nor the later lines write `main_arg7`. -/
theorem W_main_arg7 (c : Dev nD) : Pipeline.afterTail pcfgs (fun _ => adm m) (dats m) 0 (V0 m) [hostOps1] c main_arg7 = m ((c : Thread nD τ).loc main_arg7) := by
  unfold Pipeline.afterTail
  exact (StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((Pipeline.withArrays_of_ne _ c (V0 m c) _ main_arg7 (by exact (by decide : ∀ w, Pipeline.arrRef spec0 w ≠ main_arg7))).trans (V_main_arg7 m c))

/-- The run, read at the result and at the eight arguments. -/
theorem run_value : θ_run defs (onTc (τ := τ) (main (F := 𝕀))) ⟨m, fun _ => 0, ρ⟩ (fun r => ∀ c : Dev nD,
      r.2.mem ((c.tc : Thread nD τ).loc main_v25)
        = kTail (Cert.DistSpec.score (m ((c.tc : Thread nD τ).loc main_arg0))
            (kRel (m ((c.tc : Thread nD τ).loc main_arg2)) (m ((c.tc : Thread nD τ).loc main_arg4))) (m ((c.tc : Thread nD τ).loc main_arg1)) (m ((c.tc : Thread nD τ).loc main_arg3)))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v25 (by decide : main_v25 ∈ Pipeline.restRefs sig spec0)).trans (tail_v25 m c),
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).2 main_arg2 (by decide : main_arg2 ∈ Pipeline.restRefs sig spec0)).trans (W_main_arg2 m c),
     ((h c).2 main_arg3 (by decide : main_arg3 ∈ Pipeline.restRefs sig spec0)).trans (W_main_arg3 m c),
     ((h c).2 main_arg4 (by decide : main_arg4 ∈ Pipeline.restRefs sig spec0)).trans (W_main_arg4 m c),
     ((h c).2 main_arg5 (by decide : main_arg5 ∈ Pipeline.restRefs sig spec0)).trans (W_main_arg5 m c),
     ((h c).2 main_arg6 (by decide : main_arg6 ∈ Pipeline.restRefs sig spec0)).trans (W_main_arg6 m c),
     ((h c).2 main_arg7 (by decide : main_arg7 ∈ Pipeline.restRefs sig spec0)).trans (W_main_arg7 m c)⟩)
    (run_main m ρ)

end Cert.KernelIdeal.Hand

end
-- ==== Proof.LibGatherRows.lean ====
/-
  A host gather of whole rows — `x[idx]` for a table `x : [N, H]` and integer indices — read at an entry.

  The indices arrive as `[E, 1]`; result row `e` is the table's row named by `idx[e, 0]`, read as a signed
  integer and clamped into `[0, N - 1]` as every gather start index is; the column is kept.
-/
import Idealize.ShloMosaic.PureOps.ShapeOps
import Idealize.ShloMosaic.Lib.ValueIdx

open Idealize.ShloMosaic Idealize.ShloMosaic.ValueIdx

namespace Cert.Proof.LibGatherRows

variable {α : Type}

/-- The dimension numbers of a row gather: the result's second axis is the row's offset axis, the
    table's first axis is collapsed and is the one the single index component names. -/
abbrev rowDims (N E H : Nat) (wf : GatherDims.WF ⟨2, ![N, H]⟩ ⟨2, ![E, 1]⟩ ⟨2, ![E, H]⟩ [1] [0] [] [0] [] 1 ![1, H]) :
    GatherDims ⟨2, ![N, H]⟩ ⟨2, ![E, 1]⟩ ⟨2, ![E, H]⟩ where
  offsetDims := [1]
  collapsedSliceDims := [0]
  operandBatchingDims := []
  startIndicesBatchingDims := []
  startIndexMap := [0]
  indexVectorDim := 1
  sliceSizes := ![1, H]
  wf := wf

/-- Where result row `e` reads its index. -/
abbrev rowIdx {E : Nat} (e : Fin E) : (⟨2, ![E, 1]⟩ : Shape).Idx := ix2 e ⟨0, Nat.one_pos⟩

/-- THE ROW GATHER READ AT `(e, k)`: the table at the clamped index of row `e`, column `k`. -/
theorem gather_rows_apply {N E H w : Nat} (hN : 0 < N)
    (wf : GatherDims.WF ⟨2, ![N, H]⟩ ⟨2, ![E, 1]⟩ ⟨2, ![E, H]⟩ [1] [0] [] [0] [] 1 ![1, H])
    (x : (⟨2, ![N, H]⟩ : Shape).Idx → α) (idx : IVec ⟨2, ![E, 1]⟩ w) (y : (⟨2, ![E, H]⟩ : Shape).Idx) :
    Host.gather (rowDims N E H wf) x idx y
      = x (ix2 ⟨min (idx (rowIdx ⟨(y 0).val, idx2_lt0 y⟩)).toInt.toNat (N - 1), by omega⟩ ⟨(y 1).val, idx2_lt1 y⟩) := by
  unfold Host.gather
  congr 1
  funext a
  refine Fin.ext ?_
  revert a
  rw [Fin.forall_fin_two]
  constructor
  · show (rowDims N E H wf).start y idx 0 + (rowDims N E H wf).batchCoord y 0 + (rowDims N E H wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E H wf).startIndexMap from List.mem_singleton.mpr rfl)]
    have hsi : (rowDims N E H wf).siIdx y ⟨List.idxOf (0 : Fin 2) (rowDims N E H wf).startIndexMap,
        List.idxOf_lt_length_iff.2 (List.mem_singleton.mpr rfl)⟩ = rowIdx ⟨(y 0).val, idx2_lt0 y⟩ := by
      funext b; refine Fin.ext ?_
      match b with
      | ⟨0, _⟩ => rfl
      | ⟨1, _⟩ => rfl
    rw [hsi]
    rfl
  · show (rowDims N E H wf).start y idx 1 + (rowDims N E H wf).batchCoord y 1 + (rowDims N E H wf).offCoord y 1 = _
    rw [GatherDims.batchCoord_eq_zero _ _ _ List.not_mem_nil]
    have hs : (rowDims N E H wf).start y idx 1 = 0 := by
      unfold GatherDims.start
      rw [dif_neg (show ¬ (1 : Fin 2) ∈ ([0] : List (Fin 2)) by decide)]
    rw [hs]
    simp only [Nat.zero_add, Nat.add_zero]
    unfold GatherDims.offCoord
    rw [dif_pos ((GatherDims.mem_sKept _ _).mpr
      ⟨(show ¬ (1 : Fin 2) ∈ ([0] : List (Fin 2)) by decide), List.not_mem_nil⟩)]
    rfl

end Cert.Proof.LibGatherRows
-- ==== Proof.LibIndexWrap.lean ====
/-
  An index already in range passes unchanged through jnp's negative-index wrap and a gather's clamp.

  `x[i]` in jnp first replaces a negative `i` by `i + N` (a signed compare with zero, an add, a select) and
  the gather then clamps its start index, read as a signed number, into `[0, N - 1]`.  For a word that
  already names a row — `0 ≤ i < N`, with `N` at most `2 ^ 31` — neither step changes it.
-/
import Idealize.ShloMosaic.Lib.ValueIdx

open Idealize.ShloMosaic Idealize.ShloMosaic.ValueIdx

namespace Cert.Proof.LibIndexWrap

/-- A word below `2 ^ 31` read as a signed number is the word read as a natural number. -/
theorem toInt_eq_toNat (w : BitVec 32) (h : w.toNat < 2 ^ 31) : w.toInt = (w.toNat : ℤ) := by
  rw [BitVec.toInt_eq_toNat_cond]
  split <;> omega

/-- Such a word is not negative: the signed compare with zero answers no. -/
theorem cmpi_slt_zero (w : BitVec 32) (h : w.toNat < 2 ^ 31) : IntOp.cmpi .slt w 0#32 = 0#1 := by
  have hs : w.slt 0#32 = false := by
    rw [BitVec.slt, toInt_eq_toNat w h]
    simp
  unfold IntOp.cmpi
  rw [hs]
  rfl

/-- The wrap leaves it alone. -/
theorem wrap_eq (w N : BitVec 32) (h : w.toNat < 2 ^ 31) :
    Scalar.select (IntOp.cmpi .slt w 0#32) (IntOp.addi w N) w = w := by
  rw [cmpi_slt_zero w h]
  exact select_zero _ _

/-- The clamp leaves it alone. -/
theorem clamp_eq (w : BitVec 32) (N : ℕ) (hN : N ≤ 2 ^ 31) (h : w.toNat < N) :
    min w.toInt.toNat (N - 1) = w.toNat := by
  rw [toInt_eq_toNat w (by omega)]
  simp only [Int.toNat_natCast]
  omega

end Cert.Proof.LibIndexWrap
-- ==== Proof.LibScatterSet.lean ====
/-
  The host scatter that OVERWRITES (`x.at[...].set(u)`), read at an entry.

  The scatter visits the update entries in row-major order; an update entry that lands inside the operand
  replaces the element it lands on.  So an operand entry on which no update lands keeps its value, and an
  entry on which exactly one update entry lands ends as that update entry — whatever the dimension
  numbers are.  (Which update lands where is the dimension numbers' arithmetic, a separate question.)
-/
import Idealize.ShloMosaic.PureOps.ShapeOps

open Idealize.ShloMosaic

namespace Cert.Proof.LibScatterSet

variable {α : Type} {s si u : Shape} {w : Nat}

/-- One step of the fold. -/
private abbrev step (d : ScatterDims s si u) (idx : IVec si w) (upd : u.Idx → α) (r : s.Idx → α) (n : Fin u.numel) :
    s.Idx → α :=
  match d.resultIdx? (u.rowMajor.symm n) idx with
  | some i => fun i' => if i' = i then (fun _ b => b) (r i) (upd (u.rowMajor.symm n)) else r i'
  | none => r

private theorem step_miss (d : ScatterDims s si u) (idx : IVec si w) (upd : u.Idx → α) (r : s.Idx → α)
    (n : Fin u.numel) (i' : s.Idx) (h : d.resultIdx? (u.rowMajor.symm n) idx ≠ some i') :
    step d idx upd r n i' = r i' := by
  unfold step
  generalize d.resultIdx? (u.rowMajor.symm n) idx = o at h
  cases o with
  | none => rfl
  | some i => exact if_neg fun e => h (congrArg some e.symm)

private theorem step_hit (d : ScatterDims s si u) (idx : IVec si w) (upd : u.Idx → α) (r : s.Idx → α)
    (n : Fin u.numel) (i' : s.Idx) (h : d.resultIdx? (u.rowMajor.symm n) idx = some i') :
    step d idx upd r n i' = upd (u.rowMajor.symm n) := by
  unfold step
  generalize d.resultIdx? (u.rowMajor.symm n) idx = o at h
  cases o with
  | none => exact absurd h (by simp)
  | some i =>
    have : i = i' := Option.some.inj h
    subst this
    exact if_pos rfl

private theorem foldl_miss (d : ScatterDims s si u) (idx : IVec si w) (upd : u.Idx → α) (i' : s.Idx)
    (l : List (Fin u.numel)) (r : s.Idx → α) (h : ∀ n ∈ l, d.resultIdx? (u.rowMajor.symm n) idx ≠ some i') :
    l.foldl (step d idx upd) r i' = r i' := by
  induction l generalizing r with
  | nil => rfl
  | cons n l ih =>
    rw [List.foldl_cons, ih _ (fun m hm => h m (List.mem_cons_of_mem _ hm)),
      step_miss d idx upd r n i' (h n List.mem_cons_self)]

private theorem foldl_hit (d : ScatterDims s si u) (idx : IVec si w) (upd : u.Idx → α) (i' : s.Idx)
    (n₀ : Fin u.numel) (h₀ : d.resultIdx? (u.rowMajor.symm n₀) idx = some i')
    (l : List (Fin u.numel)) (r : s.Idx → α) (hmem : n₀ ∈ l)
    (huniq : ∀ n ∈ l, d.resultIdx? (u.rowMajor.symm n) idx = some i' → n = n₀) :
    l.foldl (step d idx upd) r i' = upd (u.rowMajor.symm n₀) := by
  induction l generalizing r with
  | nil => exact absurd hmem List.not_mem_nil
  | cons n l ih =>
    rw [List.foldl_cons]
    by_cases hl : n₀ ∈ l
    · exact ih _ hl fun m hm => huniq m (List.mem_cons_of_mem _ hm)
    · have hn : n = n₀ := by
        rcases List.mem_cons.mp hmem with e | e
        · exact e.symm
        · exact absurd e hl
      rw [foldl_miss d idx upd i' l _ (fun m hm e => hl (huniq m (List.mem_cons_of_mem _ hm) e ▸ hm)), hn]
      exact step_hit d idx upd r n₀ i' h₀

/-- No update entry lands on `i'`: the operand's entry stays. -/
theorem scatter_set_apply_of_miss (d : ScatterDims s si u) (x : s.Idx → α) (idx : IVec si w) (upd : u.Idx → α)
    (i' : s.Idx) (h : ∀ j, d.resultIdx? j idx ≠ some i') :
    Host.scatter d (fun _ b => b) x idx upd i' = x i' :=
  foldl_miss d idx upd i' _ x fun n _ => h _

/-- The update entry `j` lands on `i'` and no other does: the entry ends as `upd j`. -/
theorem scatter_set_apply_of_hit (d : ScatterDims s si u) (x : s.Idx → α) (idx : IVec si w) (upd : u.Idx → α)
    (i' : s.Idx) (j : u.Idx) (hj : d.resultIdx? j idx = some i')
    (huniq : ∀ j', d.resultIdx? j' idx = some i' → j' = j) :
    Host.scatter d (fun _ b => b) x idx upd i' = upd j := by
  have e : u.rowMajor.symm (u.rowMajor j) = j := Equiv.symm_apply_apply _ _
  have := foldl_hit d idx upd i' (u.rowMajor j) (by rw [e]; exact hj) (List.finRange u.numel) x (List.mem_finRange _)
    (fun n _ hn => by
      have := huniq _ hn
      rw [← this]; exact (Equiv.apply_symm_apply _ _).symm)
  rw [e] at this
  exact this

end Cert.Proof.LibScatterSet
-- ==== Proof.RefScatterPairs.lean ====
/-
  A host scatter that overwrites single entries of a matrix at index PAIRS — `x.at[r, c].set(u)` for index
  vectors `r`, `c` of one length — read at an entry.

  The scatter indices arrive as `[E, 2]`: row `e` holds the pair (row number, column number) that update `e`
  lands on, both read as signed numbers and not clamped.  When update `e` lands in column `e` (the columns are
  `arange`), the pairs are distinct, so entry `(n, m)` ends as update `m` if update `m`'s row number is `n`,
  and keeps the operand's value otherwise.
-/
import proofs.«115556_j12833362280950_1_alg».proof.Proof.LibScatterSet
import Idealize.ShloMosaic.Lib.ValueIdx

open Idealize.ShloMosaic Idealize.ShloMosaic.ValueIdx

namespace Cert.ReferenceIdeal.Hand.ScatterPairs

variable {α : Type}

/-- An update index lands on `i'` exactly when, on every axis, start plus window coordinate is `i'`'s coordinate. -/
theorem resultIdx?_eq_some_iff {s si u : Shape} {w : Nat} (d : ScatterDims s si u) (j : u.Idx) (idx : IVec si w) (i' : s.Idx) :
    d.resultIdx? j idx = some i' ↔ ∀ a, d.start j idx a + (d.window j a : ℤ) = ((i' a).val : ℤ) := by
  unfold ScatterDims.resultIdx?
  split
  · rename_i h
    constructor
    · intro e a
      have := congrArg Fin.val (congrFun (Option.some.inj e) a)
      simp only at this
      have h0 := (h a).1
      omega
    · intro e
      refine congrArg some (funext fun a => Fin.ext ?_)
      simp only
      have := e a
      omega
  · rename_i h
    constructor
    · intro e; exact absurd e (by simp)
    · intro e
      exfalso
      apply h
      intro a
      have := e a
      have hlt := (i' a).isLt
      constructor <;> omega

/-- The dimension numbers of a scatter of single entries at index pairs: no window axis, both operand axes
    inserted, the pair's two components naming the operand's two axes. -/
abbrev pairDims (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

section
variable {N M E : Nat} (wf : ScatterDims.WF ⟨2, ![N, M]⟩ ⟨2, ![E, 2]⟩ ⟨1, ![E]⟩ [] [0, 1] [0, 1] 1)

/-- There is no window: every window coordinate is zero. -/
theorem window_eq (j : (⟨1, ![E]⟩ : Shape).Idx) (a : Fin 2) : (pairDims N M E wf).window j a = 0 := by
  have key : ∀ a : Fin 2, a ∉ (List.finRange 2).filter (fun b : Fin 2 => b ∉ ([0, 1] : List (Fin 2))) := by decide
  unfold ScatterDims.window
  rw [dif_neg]
  exact key a

/-- Update `e` reads its row number at `[e, 0]` … -/
theorem start_fst {w : Nat} (e : Fin E) (idx : IVec ⟨2, ![E, 2]⟩ w) :
    (pairDims N M E wf).start (ix1 e) idx 0 = (idx (ix2 e ⟨0, by decide⟩)).toInt := by
  unfold ScatterDims.start
  rw [dif_pos (show (0 : Fin 2) ∈ ([0, 1] : List (Fin 2)) by decide)]
  refine congrArg (fun k => (idx k).toInt) (funext fun b => Fin.ext ?_)
  match b with
  | ⟨0, _⟩ => rfl
  | ⟨1, _⟩ => rfl

/-- … and its column number at `[e, 1]`. -/
theorem start_snd {w : Nat} (e : Fin E) (idx : IVec ⟨2, ![E, 2]⟩ w) :
    (pairDims N M E wf).start (ix1 e) idx 1 = (idx (ix2 e ⟨1, by decide⟩)).toInt := by
  unfold ScatterDims.start
  rw [dif_pos (show (1 : Fin 2) ∈ ([0, 1] : List (Fin 2)) by decide)]
  refine congrArg (fun k => (idx k).toInt) (funext fun b => Fin.ext ?_)
  match b with
  | ⟨0, _⟩ => rfl
  | ⟨1, _⟩ => rfl

/-- Update `e` lands on `(n, m)` exactly when its pair reads `(n, m)`. -/
theorem lands_iff {w : Nat} (e : Fin E) (idx : IVec ⟨2, ![E, 2]⟩ w) (n : Fin N) (m : Fin M) :
    (pairDims N M E wf).resultIdx? (ix1 e) idx = some (ix2 n m)
      ↔ (idx (ix2 e ⟨0, by decide⟩)).toInt = (n.val : ℤ) ∧ (idx (ix2 e ⟨1, by decide⟩)).toInt = (m.val : ℤ) := by
  rw [resultIdx?_eq_some_iff, Fin.forall_fin_two]
  rw [window_eq wf (ix1 e) 0, window_eq wf (ix1 e) 1, start_fst wf e idx, start_snd wf e idx]
  simp only [Nat.cast_zero, add_zero]

end

/-- THE SCATTER READ AT `(n, m)`, when update `e` carries the in-range pair `(r e, e)`: the entry is update `m`
    if `r m = n`, and the operand's entry otherwise. -/
theorem scatter_diag_apply {N E w : Nat}
    (wf : ScatterDims.WF ⟨2, ![N, E]⟩ ⟨2, ![E, 2]⟩ ⟨1, ![E]⟩ [] [0, 1] [0, 1] 1)
    (x : (⟨2, ![N, E]⟩ : Shape).Idx → α) (idx : IVec ⟨2, ![E, 2]⟩ w) (upd : (⟨1, ![E]⟩ : Shape).Idx → α)
    (r : Fin E → Fin N)
    (hr : ∀ e : Fin E, (idx (ix2 e ⟨0, by decide⟩)).toInt = ((r e).val : ℤ))
    (hc : ∀ e : Fin E, (idx (ix2 e ⟨1, by decide⟩)).toInt = (e.val : ℤ))
    (n : Fin N) (m : Fin E) :
    Host.scatter (pairDims N E E wf) (fun _ b => b) x idx upd (ix2 n m)
      = if r m = n then upd (ix1 m) else x (ix2 n m) := by
  have key : ∀ e : Fin E, (pairDims N E E wf).resultIdx? (ix1 e) idx = some (ix2 n m) ↔ r e = n ∧ e = m := fun e => by
    rw [lands_iff wf e idx n m, hr e, hc e]
    constructor
    · rintro ⟨h1, h2⟩; exact ⟨Fin.ext (by exact_mod_cast h1), Fin.ext (by exact_mod_cast h2)⟩
    · rintro ⟨h1, h2⟩; subst h1; subst h2; exact ⟨rfl, rfl⟩
  by_cases h : r m = n
  · rw [if_pos h]
    refine Cert.Proof.LibScatterSet.scatter_set_apply_of_hit _ x idx upd (ix2 n m) (ix1 m) ((key m).2 ⟨h, rfl⟩) ?_
    intro j' hj'
    obtain ⟨e, rfl⟩ : ∃ e : Fin E, j' = ix1 e := ⟨j' 0, eq_ix1 j'⟩
    rw [((key e).1 hj').2]
  · rw [if_neg h]
    refine Cert.Proof.LibScatterSet.scatter_set_apply_of_miss _ x idx upd (ix2 n m) ?_
    intro j hj
    obtain ⟨e, rfl⟩ : ∃ e : Fin E, j = ix1 e := ⟨j 0, eq_ix1 j⟩
    have := (key e).1 hj
    exact h (this.2 ▸ this.1)

end Cert.ReferenceIdeal.Hand.ScatterPairs
-- ==== Proof.RefMath.lean ====
/-
  The real-number facts behind the score table.

  On reals the extended reals' `max x (-x)` is the absolute value, so a term `|e·r − a·r|` of the reference's
  row sum is the specification's `|a − e| · |r|`; and the reference's `1 / (1 + exp (−y))`, with its two ones
  spelt as float words, is the logistic function.
-/
import proofs.«115556_j12833362280950_1_alg».proof.Proof.DistSpec
import Idealize.ShloMosaic.Lib.IdealHost

open Idealize.ShloMosaic

namespace Cert.ReferenceIdeal.Hand

/-- A real's cast commutes with `max`. -/
theorem coe_max' (x y : ℝ) : ((max x y : ℝ) : EReal) = max (x : EReal) (y : EReal) :=
  EReal.coe_strictMono.monotone.map_max

/-- On a real the extended reals' absolute value is the real one. -/
theorem eabs_coe (x : ℝ) : Cert.DistSpec.eabs (x : EReal) = ((|x| : ℝ) : EReal) := by
  unfold Cert.DistSpec.eabs
  rw [← EReal.coe_neg, ← coe_max', ← abs_eq_max_neg]

/-- One term of the row sum: `|e·r − a·r| = |a − e| · |r|` on reals. -/
theorem abs_term (e a r : ℝ) :
    max ((e : EReal) * (r : EReal) - (a : EReal) * (r : EReal)) (-((e : EReal) * (r : EReal) - (a : EReal) * (r : EReal)))
      = Cert.DistSpec.eabs ((a : EReal) - (e : EReal)) * Cert.DistSpec.eabs (r : EReal) := by
  rw [← EReal.coe_mul, ← EReal.coe_mul, ← EReal.coe_sub, ← EReal.coe_neg, ← coe_max', ← abs_eq_max_neg,
    ← EReal.coe_sub, eabs_coe, eabs_coe, ← EReal.coe_mul, ← sub_mul, abs_mul, abs_sub_comm]

/-- The quotient `1 / (1 + exp (−y))` with the ones spelt as float words is the logistic function. -/
theorem logistic_spelt (y : EReal) :
    Ideal.div (Ideal.ofBits .f32 0x3F800000#32) (Ideal.ofBits .f32 0x3F800000#32 + Ideal.exp (-y)) = Ideal.logistic y := by
  rw [Ideal.ofBits_one_f32]
  rfl

end Cert.ReferenceIdeal.Hand
-- ==== Proof.RefResult.lean ====
/-
  The reference program's result, as the lines after the score table applied to the specification's score
  table.

  The reference builds a distance table `dis[n, b] = ∑_j |emb[b, j]·rel[b, j] − all[n, j]·rel[b, j]|`, overwrites
  the entries `(src[b], b)` with 1e8, and takes `1 / (1 + exp (−(12 − ·)))`.  Entry by entry that is the
  specification's score: a term of the row sum is `|all − emb|·|rel|` because the inputs are real numbers (a
  gather only moves entries, so the relation rows are real too); the overwritten entries are those whose row
  number is the query's source index, because the index pairs `(src[b], b)` are in range — the negative-index
  wrap leaves them alone — and differ in their second component; and the quotient is the logistic function.
  Everything after the table is the same term on both sides and is never opened.
-/
import proofs.«115556_j12833362280950_1_alg».proof.Proof.Gen.ReferenceIdeal.Read
import proofs.«115556_j12833362280950_1_alg».proof.Proof.DistSpec
import proofs.«115556_j12833362280950_1_alg».proof.Proof.LibGatherRows
import proofs.«115556_j12833362280950_1_alg».proof.Proof.LibIndexWrap
import proofs.«115556_j12833362280950_1_alg».proof.Proof.RefScatterPairs
import proofs.«115556_j12833362280950_1_alg».proof.Proof.RefMath
import Idealize.ShloMosaic.Lib.Pipeline.Value

noncomputable section

namespace Cert.ReferenceIdeal.Hand

open Idealize.ShloMosaic Idealize.ShloMosaic.ValueIdx Cert.ReferenceIdeal Cert.ReferenceIdeal.Gen
open Idealize.ShloMosaic.TcCoe Idealize.SL.Sem

/-- The relation rows: the relation table gathered at the wrapped relation ids. -/
def relRows (a2 : FVec Ideal S237x256 .f32) (a4 : IVec S16 32) : FVec Ideal S16x256 .f32 :=
  Host.gather gather_S237x256_S16x1_S16x256_1_0_n_n_0_1_1256 a2 (broadcastInDim S16x1 ![0] bcast_S16_S16x1_0 (select (cmpi .slt a4 (broadcastInDim S16 ![] bcast_S_S16 (constantI S_ 32 0#32))) (addi a4 (broadcastInDim S16 ![] bcast_S_S16 (constantI S_ 32 237#32))) a4))

/-- Everything after the score table, as ONE function of the table and the integer arguments. -/
def edgeTail (x : FVec Ideal S14541x16 .f32) (a4 : IVec S16 32) (a5 a6 a7 : IVec S272115 32) : FVec Ideal S16x14541 .f32 :=
  transpose S16x14541 [1, 0] (Host.scatterAdd scatter_S14541x16_S272115x1_S272115x16_1_0_0_1 (broadcastInDim S14541x16 ![] bcast_S_S14541x16 (constant S_ .f32 0x00000000#32)) (broadcastInDim S272115x1 ![0] bcast_S272115_S272115x1_0 a6) (mulf (Host.gather gather_S14541x16_S272115x1_S272115x16_1_0_n_n_0_1_116 x (broadcastInDim S272115x1 ![0] bcast_S272115_S272115x1_0 (select (cmpi .slt a5 (broadcastInDim S272115 ![] bcast_S_S272115 (constantI S_ 32 0#32))) (addi a5 (broadcastInDim S272115 ![] bcast_S_S272115 (constantI S_ 32 14541#32))) a5))) (uitofp .f32 (cmpi .eq (broadcastInDim S272115x16 ![0, 1] bcast_S272115x1_S272115x16_0_1 (broadcastInDim S272115x1 ![0] bcast_S272115_S272115x1_0 a7)) (broadcastInDim S272115x16 ![0, 1] bcast_S1x16_S272115x16_0_1 (broadcastInDim S1x16 ![1] bcast_S16_S1x16_1 a4)))))) transposes_S14541x16_S16x14541_1_0

/-- The relation rows are the gather stage of the program read one operation at a time. -/
theorem relRows_eq (a2 : FVec Ideal S237x256 .f32) (a4 : IVec S16 32) :
    relRows a2 a4 = Read.val_main_v6 (F := Ideal) a2 a4 := rfl

/-- The last stage is the tail applied to the score stage. -/
theorem tail_eq (a0 : FVec Ideal S16x256 .f32) (a1 : FVec Ideal S14541x256 .f32) (a2 : FVec Ideal S237x256 .f32) (a3 a4 : IVec S16 32) (a5 a6 a7 : IVec S272115 32) :
    Read.val_main_v59 (F := Ideal) a0 a1 a2 a3 a4 a5 a6 a7
      = edgeTail (Read.val_main_v41 (F := Ideal) a0 a1 a2 a3 a4) a4 a5 a6 a7 := rfl

/-! ## The relation rows are real -/

/-- A row gather of a real table is real, entry by entry. -/
theorem gather_real (a2 : FVec Ideal S237x256 .f32) (h2 : ∀ i, ∃ r : ℝ, a2 i = (r : EReal))
    (idx : IVec S16x1 32) (y : S16x256.Idx) :
    ∃ r : ℝ, Host.gather (Cert.Proof.LibGatherRows.rowDims 237 16 256 gather_S237x256_S16x1_S16x256_1_0_n_n_0_1_1256_wf) a2 idx y = (r : EReal) := by
  rw [Cert.Proof.LibGatherRows.gather_rows_apply (by decide)]
  exact h2 _

theorem relRows_real (a2 : FVec Ideal S237x256 .f32) (a4 : IVec S16 32) (h2 : ∀ i, ∃ r : ℝ, a2 i = (r : EReal))
    (y : S16x256.Idx) : ∃ r : ℝ, relRows a2 a4 y = (r : EReal) :=
  gather_real a2 h2 _ y

/-! ## The row sum -/

theorem rowsum (a0 : FVec Ideal S16x256 .f32) (a1 : FVec Ideal S14541x256 .f32) (a2 : FVec Ideal S237x256 .f32) (a3 a4 : IVec S16 32)
    (h0 : ∀ i, ∃ r : ℝ, a0 i = (r : EReal)) (h1 : ∀ i, ∃ r : ℝ, a1 i = (r : EReal)) (h2 : ∀ i, ∃ r : ℝ, a2 i = (r : EReal))
    (n : Fin 14541) (b : Fin 16) :
    Read.val_main_v17 (F := Ideal) a0 a1 a2 a4 (ix2 n b) = Cert.DistSpec.wdist a0 (relRows a2 a4) a1 n b := by
  rw [Read.val_main_v17_apply, Read.val_main_cst_apply]
  show Ideal.ofBits .f32 0x00000000#32 + _ = _
  rw [Ideal.ofBits_zero_f32, zero_add]
  unfold Cert.DistSpec.wdist
  refine Finset.sum_congr rfl fun k _ => ?_
  have hA : Read.idx_main_v13 (Read.idx_main_v14 (Read.idx_main_v17 (ix2 n b) k)) = ix2 b k := by
    funext a; match a with | ⟨0, _⟩ => rfl | ⟨1, _⟩ => rfl
  have hB : Read.idx_main_v8 (Read.idx_main_v10 (Read.idx_main_v17 (ix2 n b) k)) = ix2 n k := by
    funext a; match a with | ⟨0, _⟩ => rfl | ⟨1, _⟩ => rfl
  have hC : Read.idx_main_v9 (Read.idx_main_v11 (Read.idx_main_v17 (ix2 n b) k)) = ix2 b k := by
    funext a; match a with | ⟨0, _⟩ => rfl | ⟨1, _⟩ => rfl
  rw [Read.val_main_v16_apply, Read.val_main_v15_apply, Read.val_main_v14_apply, Read.val_main_v13_apply,
    Read.val_main_v7_apply, Read.val_main_v12_apply, Read.val_main_v10_apply, Read.val_main_v8_apply,
    Read.val_main_v11_apply, Read.val_main_v9_apply, hA, hB, hC, ← relRows_eq]
  obtain ⟨e, he⟩ := h0 (ix2 b k)
  obtain ⟨a, ha⟩ := h1 (ix2 n k)
  obtain ⟨r, hr⟩ := relRows_real a2 a4 h2 (ix2 b k)
  rw [he, ha, hr]
  exact abs_term e a r

/-! ## The scatter's index pairs -/

/-- An in-range source index passes through the negative-index wrap unchanged. -/
theorem wrapped_src (a3 : IVec S16 32) (b : Fin 16) (hs : (a3 (ix1 b)).toNat < 14541) :
    Read.val_main_v23 (F := Ideal) a3 (ix1 b) = a3 (ix1 b) := by
  rw [Read.val_main_v23_apply, Read.val_main_v20_apply, Read.val_main_v22_apply, Read.val_main_v19_apply,
    Read.val_main_v21_apply, Read.val_main_c_1_apply, Read.val_main_c_2_apply]
  exact Cert.Proof.LibIndexWrap.wrap_eq _ _ (by omega)

/-- The column numbers `arange(16)` pass through it unchanged too. -/
theorem wrapped_iota (b : Fin 16) : Read.val_main_v28 (F := Ideal) (ix1 b) = BitVec.ofNat 32 b.val := by
  rw [Read.val_main_v28_apply, Read.val_main_v25_apply, Read.val_main_v27_apply, Read.val_main_v24_apply,
    Read.val_main_v26_apply, Read.val_main_c_3_apply, Read.val_main_c_4_apply, Read.val_main_v18_apply]
  refine Cert.Proof.LibIndexWrap.wrap_eq _ _ ?_
  show (BitVec.ofNat 32 b.val).toNat < 2 ^ 31
  rw [BitVec.toNat_ofNat]
  have := b.isLt
  omega

/-- The first component of pair `b` is the source index of query `b` … -/
theorem idx_fst (a3 : IVec S16 32) (b : Fin 16) (hs : (a3 (ix1 b)).toNat < 14541) :
    Read.val_main_v31 (F := Ideal) a3 (ix2 b ⟨0, by decide⟩) = a3 (ix1 b) := by
  unfold Read.val_main_v31
  refine (concatenate_pair_apply_left (1 : Fin 2) (Read.val_main_v29 (F := Ideal) a3) (Read.val_main_v30 (F := Ideal))
    concatenates_S16x1_S16x1_S16x2_d1 (ix2 b ⟨0, by decide⟩ : S16x2.Idx) rfl (ix2 b ⟨0, by decide⟩ : S16x1.Idx)
    (fun c => match c with | ⟨0, _⟩ => rfl | ⟨1, _⟩ => rfl)).trans ?_
  rw [Read.val_main_v29_apply]
  have hi : Read.idx_main_v29 (ix2 b (⟨0, by decide⟩ : Fin 1)) = ix1 b := by
    funext a; match a with | ⟨0, _⟩ => rfl
  rw [hi]
  exact wrapped_src a3 b hs

/-- … and the second is `b` itself. -/
theorem idx_snd (a3 : IVec S16 32) (b : Fin 16) :
    Read.val_main_v31 (F := Ideal) a3 (ix2 b ⟨1, by decide⟩) = BitVec.ofNat 32 b.val := by
  unfold Read.val_main_v31
  refine (concatenate_pair_apply_right (1 : Fin 2) (Read.val_main_v29 (F := Ideal) a3) (Read.val_main_v30 (F := Ideal))
    concatenates_S16x1_S16x1_S16x2_d1 (ix2 b ⟨1, by decide⟩ : S16x2.Idx) rfl rfl (ix2 b ⟨0, by decide⟩ : S16x1.Idx)
    (fun c hc => match c, hc with | ⟨0, _⟩, _ => rfl | ⟨1, _⟩, hc => absurd rfl hc) rfl).trans ?_
  rw [Read.val_main_v30_apply]
  have hi : Read.idx_main_v30 (ix2 b (⟨0, by decide⟩ : Fin 1)) = ix1 b := by
    funext a; match a with | ⟨0, _⟩ => rfl
  rw [hi]
  exact wrapped_iota b

/-! ## The masked distance table and the score table -/

/-- The distance table after the overwrite, entry by entry. -/
theorem scat_eq (a0 : FVec Ideal S16x256 .f32) (a1 : FVec Ideal S14541x256 .f32) (a2 : FVec Ideal S237x256 .f32) (a3 a4 : IVec S16 32) (h0 : ∀ i, ∃ r : ℝ, a0 i = (r : EReal)) (h1 : ∀ i, ∃ r : ℝ, a1 i = (r : EReal)) (h2 : ∀ i, ∃ r : ℝ, a2 i = (r : EReal))
    (hs : ∀ b : Fin 16, (a3 (ix1 b)).toNat < 14541) (n : Fin 14541) (b : Fin 16) :
    Read.val_main_v33 (F := Ideal) a0 a1 a2 a3 a4 (ix2 n b) = Cert.DistSpec.mdist a0 (relRows a2 a4) a1 a3 n b := by
  unfold Read.val_main_v33
  refine (ScatterPairs.scatter_diag_apply (N := 14541) (E := 16) scatter_S14541x16_S16x2_S16_n_01_01_1_wf
    (Read.val_main_v17 (F := Ideal) a0 a1 a2 a4) (Read.val_main_v31 (F := Ideal) a3) (Read.val_main_v32 (F := Ideal))
    (fun e => ⟨(a3 (ix1 e)).toNat, hs e⟩) (fun e => ?_) (fun e => ?_) n b).trans ?_
  · rw [idx_fst a3 e (hs e)]
    exact Cert.Proof.LibIndexWrap.toInt_eq_toNat _ (by have := hs e; omega)
  · rw [idx_snd a3 e, Cert.Proof.LibIndexWrap.toInt_eq_toNat _ (by rw [BitVec.toNat_ofNat]; have := e.isLt; omega),
      BitVec.toNat_ofNat]
    have := e.isLt
    have h' : e.val % 2 ^ 32 = e.val := by omega
    rw [h']
  · unfold Cert.DistSpec.mdist
    by_cases h : BitVec.ofNat 32 n.val = a3 (ix1 b)
    · have hr : (⟨(a3 (ix1 b)).toNat, hs b⟩ : Fin 14541) = n := Fin.ext (by
        show (a3 (ix1 b)).toNat = n.val
        rw [← h, BitVec.toNat_ofNat]
        have := n.isLt
        omega)
      rw [if_pos h, if_pos hr, Read.val_main_v32_apply, Read.val_main_cst_5_apply]
      rfl
    · have hr : ¬ (⟨(a3 (ix1 b)).toNat, hs b⟩ : Fin 14541) = n := fun e => h (by
        have e' : (a3 (ix1 b)).toNat = n.val := congrArg Fin.val e
        refine BitVec.eq_of_toNat_eq ?_
        rw [BitVec.toNat_ofNat, ← e']
        have := hs b
        omega)
      rw [if_neg h, if_neg hr]
      exact rowsum a0 a1 a2 a3 a4 h0 h1 h2 n b

/-- The score stage of the program is the specification's score table. -/
theorem table_eq (a0 : FVec Ideal S16x256 .f32) (a1 : FVec Ideal S14541x256 .f32) (a2 : FVec Ideal S237x256 .f32) (a3 a4 : IVec S16 32) (h0 : ∀ i, ∃ r : ℝ, a0 i = (r : EReal)) (h1 : ∀ i, ∃ r : ℝ, a1 i = (r : EReal)) (h2 : ∀ i, ∃ r : ℝ, a2 i = (r : EReal))
    (hs : ∀ b : Fin 16, (a3 (ix1 b)).toNat < 14541) :
    Read.val_main_v41 (F := Ideal) a0 a1 a2 a3 a4 = Cert.DistSpec.score a0 (relRows a2 a4) a1 a3 := by
  funext i
  obtain ⟨n, b, rfl⟩ : ∃ (n : Fin 14541) (b : Fin 16), i = ix2 n b := ⟨i 0, i 1, eq_ix2 i⟩
  rw [Read.val_main_v41_apply, Read.val_main_v40_apply, Read.val_main_cst_8_apply, Read.val_main_v39_apply,
    Read.val_main_v38_apply, Read.val_main_cst_7_apply, Read.val_main_v37_apply, Read.val_main_v36_apply,
    Read.val_main_v35_apply, Read.val_main_v34_apply, Read.val_main_cst_6_apply,
    scat_eq a0 a1 a2 a3 a4 h0 h1 h2 hs n b]
  exact logistic_spelt _

/-! ## The result -/

/-- The reference's result term is the tail applied to the specification's score table. -/
theorem result_eq (a0 : FVec Ideal S16x256 .f32) (a1 : FVec Ideal S14541x256 .f32) (a2 : FVec Ideal S237x256 .f32) (a3 a4 : IVec S16 32) (a5 a6 a7 : IVec S272115 32)
    (h0 : ∀ i, ∃ r : ℝ, a0 i = (r : EReal)) (h1 : ∀ i, ∃ r : ℝ, a1 i = (r : EReal)) (h2 : ∀ i, ∃ r : ℝ, a2 i = (r : EReal))
    (hs : ∀ b : Fin 16, (a3 (ix1 b)).toNat < 14541) :
    transpose S16x14541 [1, 0] (Host.scatterAdd scatter_S14541x16_S272115x1_S272115x16_1_0_0_1 (broadcastInDim S14541x16 ![] bcast_S_S14541x16 (constant S_ .f32 0x00000000#32)) (broadcastInDim S272115x1 ![0] bcast_S272115_S272115x1_0 a6) (mulf (Host.gather gather_S14541x16_S272115x1_S272115x16_1_0_n_n_0_1_116 (Host.divf (broadcastInDim S14541x16 ![] bcast_S_S14541x16 (constant S_ .f32 0x3F800000#32)) (addf (broadcastInDim S14541x16 ![] bcast_S_S14541x16 (constant S_ .f32 0x3F800000#32)) (Host.exp (Host.negf (subf (broadcastInDim S14541x16 ![] bcast_S_S14541x16 (constant S_ .f32 0x41400000#32)) (Host.scatter scatter_S14541x16_S16x2_S16_n_01_01_1 (fun _ b => b) (Host.reduceAdd (Host.absf (subf (broadcastInDim S14541x16x256 ![0, 1, 2] bcast_S1x16x256_S14541x16x256_0_1_2 (broadcastInDim S1x16x256 ![1, 2] bcast_S16x256_S1x16x256_1_2 (mulf a0 (Host.gather gather_S237x256_S16x1_S16x256_1_0_n_n_0_1_1256 a2 (broadcastInDim S16x1 ![0] bcast_S16_S16x1_0 (select (cmpi .slt a4 (broadcastInDim S16 ![] bcast_S_S16 (constantI S_ 32 0#32))) (addi a4 (broadcastInDim S16 ![] bcast_S_S16 (constantI S_ 32 237#32))) a4)))))) (mulf (broadcastInDim S14541x16x256 ![0, 1, 2] bcast_S14541x1x256_S14541x16x256_0_1_2 (broadcastInDim S14541x1x256 ![0, 2] bcast_S14541x256_S14541x1x256_0_2 a1)) (broadcastInDim S14541x16x256 ![0, 1, 2] bcast_S1x16x256_S14541x16x256_0_1_2 (broadcastInDim S1x16x256 ![1, 2] bcast_S16x256_S1x16x256_1_2 (Host.gather gather_S237x256_S16x1_S16x256_1_0_n_n_0_1_1256 a2 (broadcastInDim S16x1 ![0] bcast_S16_S16x1_0 (select (cmpi .slt a4 (broadcastInDim S16 ![] bcast_S_S16 (constantI S_ 32 0#32))) (addi a4 (broadcastInDim S16 ![] bcast_S_S16 (constantI S_ 32 237#32))) a4)))))))) (constant S_ .f32 0x00000000#32) reducesTo_S14541x16x256_S14541x16_d2 h_S_) (concatenate S16x2 1 [⟨S16x1, (broadcastInDim S16x1 ![0] bcast_S16_S16x1_0 (select (cmpi .slt a3 (broadcastInDim S16 ![] bcast_S_S16 (constantI S_ 32 0#32))) (addi a3 (broadcastInDim S16 ![] bcast_S_S16 (constantI S_ 32 14541#32))) a3))⟩, ⟨S16x1, (broadcastInDim S16x1 ![0] bcast_S16_S16x1_0 (select (cmpi .slt (iotaInDim S16 32 0) (broadcastInDim S16 ![] bcast_S_S16 (constantI S_ 32 0#32))) (addi (iotaInDim S16 32 0) (broadcastInDim S16 ![] bcast_S_S16 (constantI S_ 32 16#32))) (iotaInDim S16 32 0)))⟩] concatenates_S16x1_S16x1_S16x2_d1) (broadcastInDim S16 ![] bcast_S_S16 (constant S_ .f32 0x4CBEBC20#32)))))))) (broadcastInDim S272115x1 ![0] bcast_S272115_S272115x1_0 (select (cmpi .slt a5 (broadcastInDim S272115 ![] bcast_S_S272115 (constantI S_ 32 0#32))) (addi a5 (broadcastInDim S272115 ![] bcast_S_S272115 (constantI S_ 32 14541#32))) a5))) (uitofp .f32 (cmpi .eq (broadcastInDim S272115x16 ![0, 1] bcast_S272115x1_S272115x16_0_1 (broadcastInDim S272115x1 ![0] bcast_S272115_S272115x1_0 a7)) (broadcastInDim S272115x16 ![0, 1] bcast_S1x16_S272115x16_0_1 (broadcastInDim S1x16 ![1] bcast_S16_S1x16_1 a4)))))) transposes_S14541x16_S16x14541_1_0
      = edgeTail (Cert.DistSpec.score a0 (relRows a2 a4) a1 a3) a4 a5 a6 a7 :=
  (Read.val_main_v59_eq (F := Ideal) a0 a1 a2 a3 a4 a5 a6 a7).trans
    ((tail_eq a0 a1 a2 a3 a4 a5 a6 a7).trans
      (congrArg (edgeTail · a4 a5 a6 a7) (table_eq a0 a1 a2 a3 a4 h0 h1 h2 hs)))

/-- The run of the reference, with the result stated through the specification's score table. -/
theorem run_score (m : (ℓ : Loc nD τ sig) → Buf (Elt Ideal) ℓ) (ρ : Dev nD → PrngReg)
    (h0 : ∀ (c : Dev nD) (i : S16x256.Idx), ∃ r : ℝ, (m ((c.tc : Thread nD τ).loc main_arg0) : FVec Ideal S16x256 .f32) i = (r : EReal))
    (h1 : ∀ (c : Dev nD) (i : S14541x256.Idx), ∃ r : ℝ, (m ((c.tc : Thread nD τ).loc main_arg1) : FVec Ideal S14541x256 .f32) i = (r : EReal))
    (h2 : ∀ (c : Dev nD) (i : S237x256.Idx), ∃ r : ℝ, (m ((c.tc : Thread nD τ).loc main_arg2) : FVec Ideal S237x256 .f32) i = (r : EReal))
    (hs : ∀ (c : Dev nD) (b : Fin 16), ((m ((c.tc : Thread nD τ).loc main_arg3) : IVec S16 32) (ix1 b)).toNat < 14541) :
    θ_run defs (onTc (τ := τ) (main (F := Ideal))) ⟨m, fun _ => 0, ρ⟩ fun r => ∀ c : Dev nD,
      r.2.mem ((c.tc : Thread nD τ).loc main_v59)
        = edgeTail (Cert.DistSpec.score (m ((c.tc : Thread nD τ).loc main_arg0)) (relRows (m ((c.tc : Thread nD τ).loc main_arg2)) (m ((c.tc : Thread nD τ).loc main_arg4))) (m ((c.tc : Thread nD τ).loc main_arg1)) (m ((c.tc : Thread nD τ).loc main_arg3)))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans
      (result_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
        (h0 c) (h1 c) (h2 c) (hs c)), (h c).2⟩)
    (Value.run (F := Ideal) m ρ)

end Cert.ReferenceIdeal.Hand

end
-- ==== Proof.LibIsReal.lean ====
/-
  "This extended real is a real number", and what keeps it so.

  Distributing a product over a sum, cancelling, moving a factor across a sum: these laws of the reals fail
  at the infinities, so a proof that uses one first shows that the values involved are real.  The property
  is closed under sums, products, finite sums, maxima and minima, quotients by a nonzero real and the
  exponential; and the hyperbolic tangent of ANY extended real is real (it is -1 and 1 at the infinities),
  which is why a network whose layers end in tanh keeps finite values whatever it is fed.
-/
import Idealize.ShloMosaic.PureOps.Ideal
import Mathlib.Algebra.BigOperators.Fin

open Idealize.ShloMosaic

namespace Cert.Proof.LibIsReal

/-- The extended real `x` is (the coercion of) a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

/-- A finite sum of reals is real. -/
theorem isReal_sum {ι : Type*} (S : Finset ι) (f : ι → EReal) (h : ∀ i ∈ S, IsReal (f i)) : IsReal (∑ i ∈ S, f i) := by
  classical
  induction S using Finset.induction_on with
  | empty => simpa using isReal_zero
  | insert a S ha ih =>
    rw [Finset.sum_insert ha]
    exact (h a (Finset.mem_insert_self a S)).add (ih fun i hi => h i (Finset.mem_insert_of_mem hi))

/-- The hyperbolic tangent of any extended real is real. -/
theorem isReal_tanh (x : EReal) : IsReal (Ideal.tanh x) := by
  induction x using EReal.rec with
  | bot => exact ⟨-1, by rw [Ideal.tanh_bot, EReal.coe_neg, EReal.coe_one]⟩
  | coe r => exact ⟨Real.tanh r, rfl⟩
  | top => exact ⟨1, by rw [Ideal.tanh_top, EReal.coe_one]⟩

theorem IsReal.exp {x : EReal} (hx : IsReal x) : IsReal (Ideal.exp x) := by
  obtain ⟨a, rfl⟩ := hx
  exact ⟨Real.exp a, rfl⟩

/-- A quotient of a real by a nonzero real is real. -/
theorem IsReal.div {x : EReal} (hx : IsReal x) {d : ℝ} (hd : d ≠ 0) : IsReal (Ideal.div x (d : EReal)) := by
  rw [Ideal.div_coe hd]
  exact hx.mul (isReal_coe _)

/-- A real is neither infinity. -/
theorem IsReal.ne_top {x : EReal} (hx : IsReal x) : x ≠ ⊤ := by
  obtain ⟨a, rfl⟩ := hx; exact EReal.coe_ne_top a

theorem IsReal.ne_bot {x : EReal} (hx : IsReal x) : x ≠ ⊥ := by
  obtain ⟨a, rfl⟩ := hx; exact EReal.coe_ne_bot a

/-- … and conversely. -/
theorem isReal_of_ne {x : EReal} (ht : x ≠ ⊤) (hb : x ≠ ⊥) : IsReal x :=
  ⟨x.toReal, (EReal.coe_toReal ht hb).symm⟩

/-- A whole family of reals comes with its real-valued family (for stating a law over the reals). -/
theorem exists_real_family {ι : Type*} (f : ι → EReal) (h : ∀ i, IsReal (f i)) : ∃ g : ι → ℝ, ∀ i, f i = (g i : EReal) :=
  ⟨fun i => (h i).choose, fun i => (h i).choose_spec⟩

end Cert.Proof.LibIsReal
-- ==== Proof.LibIsRealVec.lean ====
/-
  Arrays of real numbers stay arrays of real numbers under the operations the printed programs use.

  `AllReal x`: every entry of the array `x` (over the extended reals) is a real.  Closed under the
  pointwise sum, difference, product, maximum and minimum; under a contraction (a finite sum of products)
  with or without a real accumulator; under a gather (whatever the indices) and an accumulating scatter of
  real updates; under a broadcast.  The hyperbolic tangent of ANY array is an array of reals, the host's
  as the vector unit's — so after a tanh layer everything is finite again, whatever came before.
-/
import proofs.«115556_j12833362280950_1_alg».proof.Proof.LibIsReal
import Idealize.ShloMosaic.PureOps.Ideal.Laws

open Idealize.ShloMosaic

namespace Cert.Proof.LibIsReal

variable {s : Shape} {φ : FTy}

/-- Every entry of the array is a real. -/
def AllReal (x : FVec Ideal s φ) : Prop := ∀ i, IsReal (x i)

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.maximumf {x y : FVec Ideal s φ} (hx : AllReal x) (hy : AllReal y) : AllReal (maximumf x y) :=
  fun i => (hx i).max (hy i)

theorem AllReal.minimumf {x y : FVec Ideal s φ} (hx : AllReal x) (hy : AllReal y) : AllReal (minimumf x y) :=
  fun i => (hx i).min (hy i)

/-- The vector unit's tanh of any array. -/
theorem allReal_tanh (x : FVec Ideal s φ) : AllReal (tanh x) := fun i => isReal_tanh (x i)

/-- The host's tanh of any array. -/
theorem allReal_host_tanh (x : FVec Ideal s φ) : AllReal (Host.tanh x) := fun i => isReal_tanh (x i)

theorem AllReal.exp {x : FVec Ideal s φ} (hx : AllReal x) : AllReal (exp x) := fun i => (hx i).exp

theorem AllReal.host_exp {x : FVec Ideal s φ} (hx : AllReal x) : AllReal (Host.exp x) := fun i => (hx i).exp

/-- A host contraction of real arrays. -/
theorem AllReal.dotGeneral {sl sr so : Shape} {φ₁ φ₂ : FTy} (d : DotDims sl sr so) (prec : Option ContractPrecision)
    (sched : HostSchedule) {lhs : FVec Ideal sl φ₁} {rhs : FVec Ideal sr φ₂} (hl : AllReal lhs) (hr : AllReal rhs) :
    AllReal (FloatOps.dotGeneral d prec sched lhs rhs : FVec Ideal so .f32) := fun j => by
  rw [Ideal.dotGeneral_apply]
  exact isReal_sum _ _ fun k _ => (hl _).mul (hr _)

/-- The matrix unit's product of real arrays onto a real accumulator. -/
theorem AllReal.matmul {sl sr so : Shape} {φ₁ φ₂ : FTy} (d : DotDims sl sr so) (prec : Option ContractPrecision)
    {lhs : FVec Ideal sl φ₁} {rhs : FVec Ideal sr φ₂} {acc : FVec Ideal so .f32}
    (hl : AllReal lhs) (hr : AllReal rhs) (ha : AllReal acc) :
    AllReal (FloatOps.matmul d prec lhs rhs acc : FVec Ideal so .f32) := fun j => by
  rw [Ideal.matmul_apply]
  exact (ha j).add (isReal_sum _ _ fun k _ => (hl _).mul (hr _))

/-- A gather reads entries of the operand: real whatever the indices are. -/
theorem AllReal.gather {si t : Shape} {w : Nat} (d : GatherDims s si t) {x : FVec Ideal s φ} (hx : AllReal x)
    (idx : IVec si w) : AllReal (Host.gather d x idx : FVec Ideal t φ) := fun _ => hx _

/-- An accumulating scatter of real updates into a real operand. -/
theorem AllReal.scatterAdd {si u : Shape} {w : Nat} (d : ScatterDims s si u) {x : FVec Ideal s φ} {upd : FVec Ideal u φ}
    (hx : AllReal x) (hu : AllReal upd) (idx : IVec si w) : AllReal (Host.scatterAdd (F := Ideal) d x idx upd) := fun i => by
  show IsReal (Ideal.hostScatterAdd d x idx upd i)
  unfold Ideal.hostScatterAdd
  exact (hx i).add (isReal_sum _ _ fun j _ => hu j)

/-- A broadcast repeats entries. -/
theorem AllReal.broadcastInDim {t : Shape} (dims : Fin s.rank → Fin t.rank) (h : s.BroadcastsInDim t dims)
    {x : FVec Ideal s φ} (hx : AllReal x) : AllReal (broadcastInDim t dims h x : FVec Ideal t φ) := fun _ => hx _

end Cert.Proof.LibIsReal
-- ==== Proof.LibPreDecode.lean ====
/-
  The element facts behind a precondition of the form "every float input finite, every integer input in
  its range".

  The precondition is printed as a conjunction of reductions `all (…)`; once a reduction is opened (the
  library's law for an all-reduce) one is left with a fact about ONE element: for a float, that its
  absolute value compares below the word of +infinity — which says exactly that it is a real number —; for
  an integer, that the conjunction of two signed compares holds — which bounds it, as a signed number and,
  when the lower bound is not negative, as a natural number.
-/
import proofs.«115556_j12833362280950_1_alg».proof.Proof.LibIsReal
import Idealize.ShloMosaic.Lib.Affine
import Idealize.ShloMosaic.Lib.ReduceAll
import proofs.«115556_j12833362280950_1_alg».proof.Proof.LibIsRealVec

open Idealize.ShloMosaic

namespace Cert.Proof.LibPreDecode

open LibIsReal

/-- The word of +infinity. -/
theorem ofBits_inf : Ideal.ofBits .f32 0x7F800000#32 = ⊤ := by simp [Ideal.ofBits, Ideal.ieee]

/-- The one-bit word of a decided proposition is `1` exactly when the proposition holds. -/
theorem ofBool_decide_eq_one (p : Prop) [Decidable p] : BitVec.ofBool (decide p) = 1#1 ↔ p := by
  by_cases h : p <;> simp [h]

/-- `|x| < +inf` holds exactly of the real numbers. -/
theorem abs_lt_inf_iff (x : EReal) :
    Ideal.cmp .olt (max x (-x)) (Ideal.ofBits .f32 0x7F800000#32) = 1#1 ↔ IsReal x := by
  rw [ofBits_inf]
  show BitVec.ofBool (decide (max x (-x) < ⊤)) = 1#1 ↔ IsReal x
  rw [ofBool_decide_eq_one]
  induction x using EReal.rec with
  | bot =>
    rw [EReal.neg_bot, max_eq_right bot_le]
    exact ⟨fun h => absurd h (lt_irrefl _), fun h => absurd rfl h.ne_bot⟩
  | coe r =>
    refine ⟨fun _ => isReal_coe r, fun _ => ?_⟩
    exact max_lt (EReal.coe_lt_top r) (by rw [← EReal.coe_neg]; exact EReal.coe_lt_top _)
  | top =>
    rw [max_eq_left le_top]
    exact ⟨fun h => absurd h (lt_irrefl _), fun h => absurd rfl h.ne_top⟩

/-- The two signed compares of a range check, together, bound the word as a signed number. -/
theorem range_iff (a lo hi : BitVec 32) :
    IntOp.andi (IntOp.cmpi .sge a lo) (IntOp.cmpi .sle a hi) = 1#1 ↔ lo.toInt ≤ a.toInt ∧ a.toInt ≤ hi.toInt :=
  IntOp.andi_eq_one.trans (and_congr IntOp.cmpi_sge IntOp.cmpi_sle)

/-- A word that is not negative as a signed number and at most `N` is at most `N` as a natural number:
    what an indexed access asks of its index. -/
theorem toNat_le_of_range (a : BitVec 32) (N : ℕ) (h0 : 0 ≤ a.toInt) (h1 : a.toInt ≤ (N : ℤ)) : a.toNat ≤ N := by
  rw [BitVec.toInt_eq_toNat_cond] at h0 h1
  split at h0 <;> omega

/-! ## The two kinds of conjunct, for a whole array of any shape -/

/-- The result shape of an all-reduce to a scalar has one index. -/
instance subsingleton_scalar_idx : Subsingleton (⟨0, ![]⟩ : Shape).Idx := ⟨fun _ _ => funext fun d => d.elim0⟩

section Whole

variable {s : Shape} {axes : List (Fin s.rank)}

/-- `all (|x| < +inf)` says every entry of `x` is real. -/
theorem allReal_of_all_finite (x : FVec Ideal s .f32) (inf : FVec Ideal s .f32)
    (hinf : ∀ i, inf i = Ideal.ofBits .f32 0x7F800000#32) (init : IVec ⟨0, ![]⟩ 1)
    (h : s.ReducesTo axes ⟨0, ![]⟩) (hu : 0 < (⟨0, ![]⟩ : Shape).numel) (j : (⟨0, ![]⟩ : Shape).Idx)
    (e : Host.reduce IntOp.andi (cmpf .olt (Host.absf x) inf) init h hu j = 1#1) : AllReal x := fun i => by
  have hi := Host.reduce_andi_all (cmpf .olt (Host.absf x) inf) init h hu j e i
  have : Ideal.cmp .olt (max (x i) (-(x i))) (Ideal.ofBits .f32 0x7F800000#32) = 1#1 := by
    rw [← hinf i]; exact hi
  exact (abs_lt_inf_iff (x i)).mp this

/-- `all (lo ≤ x ∧ x ≤ hi)` bounds every entry of `x` as a signed number. -/
theorem range_of_all (x lo hi : IVec s 32) (init : IVec ⟨0, ![]⟩ 1)
    (h : s.ReducesTo axes ⟨0, ![]⟩) (hu : 0 < (⟨0, ![]⟩ : Shape).numel) (j : (⟨0, ![]⟩ : Shape).Idx)
    (e : Host.reduce IntOp.andi (andi (cmpi .sge x lo) (cmpi .sle x hi)) init h hu j = 1#1) (i : s.Idx) :
    (lo i).toInt ≤ (x i).toInt ∧ (x i).toInt ≤ (hi i).toInt :=
  (range_iff (x i) (lo i) (hi i)).mp (Host.reduce_andi_all (andi (cmpi .sge x lo) (cmpi .sle x hi)) init h hu j e i)

end Whole

end Cert.Proof.LibPreDecode
-- ==== Proof.PreDecode.lean ====
/-
  The precondition "every float input finite, the source indices in range", opened.

  The printed predicate is a conjunction of five all-reductions joined by `and`: for each of the three
  float arrays, `all (|x| < +inf)`; for the array of source indices, `all (x ≥ 0)` and `all (x < 14541)`
  (signed compares).  Its value being 1 at the one index of the scalar result gives, conjunct by conjunct:
  every float entry is a real number (|x| < +inf fails exactly at the two infinities), and every source
  index, being non-negative as a signed word and below 14541, is below 14541 as a natural number.
-/
import proofs.«115556_j12833362280950_1_alg».proof.Proof.Gen.Pre_finite_inputs
import proofs.«115556_j12833362280950_1_alg».proof.Proof.LibPreDecode
import Idealize.ShloMosaic.Lib.ValueIdx
import Idealize.ShloMosaic.Lib.ReduceAll

namespace Cert.PreHand

open Idealize.ShloMosaic Idealize.ShloMosaic.ValueIdx Cert.Pre_finite_inputs
open Cert.Proof.LibIsReal Cert.Proof.LibPreDecode

/-- A 32-bit word that is non-negative as a signed number and, as a signed number, below `N`
    is below `N` as a natural number. -/
theorem toNat_lt_of_signed_range (a : BitVec 32) (N : ℕ) (h0 : 0 ≤ a.toInt) (h1 : a.toInt < (N : ℤ)) : a.toNat < N := by
  rw [BitVec.toInt_eq_toNat_cond] at h0 h1
  split at h0 <;> omega

theorem pre_decode (a0 : FVec Ideal S16x256 .f32) (a1 : FVec Ideal S14541x256 .f32) (a2 : FVec Ideal S237x256 .f32)
    (a3 a4 : IVec S16 32) (a5 a6 a7 : IVec S272115 32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ b : Fin 16, (a3 (ix1 b)).toNat < 14541) := by
  -- the value of the predicate at the one index of the scalar result
  have h0 := congrFun h ValueIdx.ix0
  dsimp only [fn, fn_part1] at h0
  -- the conjunction, split from the outside in
  obtain ⟨h1, hlt⟩ := IntOp.andi_eq_one.mp h0
  obtain ⟨h2, hge⟩ := IntOp.andi_eq_one.mp h1
  obtain ⟨h3, hf2⟩ := IntOp.andi_eq_one.mp h2
  obtain ⟨hf0, hf1⟩ := IntOp.andi_eq_one.mp h3
  refine ⟨?_, ?_, ?_, ?_⟩
  · exact allReal_of_all_finite a0 _ (fun _ => rfl) _ _ _ _ hf0
  · exact allReal_of_all_finite a1 _ (fun _ => rfl) _ _ _ _ hf1
  · exact allReal_of_all_finite a2 _ (fun _ => rfl) _ _ _ _ hf2
  · intro b
    -- the two compares at the entry `b`
    have hge' := Host.reduce_andi_all _ _ _ _ _ hge (ix1 b)
    have hlt' := Host.reduce_andi_all _ _ _ _ _ hlt (ix1 b)
    have g1 : (0#32 : BitVec 32).toInt ≤ (a3 (ix1 b)).toInt := IntOp.cmpi_sge.mp hge'
    have g2 : (a3 (ix1 b)).toInt < (14541#32 : BitVec 32).toInt := IntOp.cmpi_slt.mp hlt'
    have e0 : (0#32 : BitVec 32).toInt = 0 := by decide
    have e1 : (14541#32 : BitVec 32).toInt = ((14541 : ℕ) : ℤ) := by decide
    rw [e0] at g1
    rw [e1] at g2
    exact toNat_lt_of_signed_range _ 14541 g1 g2

end Cert.PreHand
-- ==== Proof.lean ====
/-
  The weighted-L1 distance kernel against its reference, over the extended reals.

  Both programs gather sixteen relation rows, build the score table
      score[n, b] = logistic (12 − d[n, b]),   d[n, b] = 1e8 if n = src[b], else ∑_j |all[n, j] − emb[b, j]| · |rel[b, j]|,
  over 14541 entity rows and 16 queries, and then apply the same lines to it: gather the heads' rows, mask by relation,
  sum onto the tails, transpose.  The kernel computes the table 2048 rows at a time (the last block reaches past the
  array's end and is cut there) with the distance in the factored form above; the reference computes
  ∑_j |emb[b, j]·rel[b, j] − all[n, j]·rel[b, j]| and overwrites the entries (src[b], b).  For finite inputs the two
  sums agree term by term, |e·r − a·r| = |a − e|·|r|; the overwritten entries are the masked ones when every source
  index lies in [0, 14541) — the precondition says so: outside it the reference's indexing wraps and the kernel's
  comparison does not.  The lines after the table are one function on both sides and are never opened.

  The frames: at the word level nothing is said of what the kernel computes (a row sum is not known to ignore the rows
  past the array's end); the argument arrays are never written.  At the ideal instance the same run is read with the
  stored blocks named, which gives the result array.
-/
import proofs.«115556_j12833362280950_1_alg».proof.Defs
import proofs.«115556_j12833362280950_1_alg».proof.Proof.Gen.Kernel
import proofs.«115556_j12833362280950_1_alg».proof.Proof.Gen.Kernel.Skeleton
import proofs.«115556_j12833362280950_1_alg».proof.Proof.Gen.Kernel.Launch
import proofs.«115556_j12833362280950_1_alg».proof.Proof.Gen.Kernel.Flash
import proofs.«115556_j12833362280950_1_alg».proof.Proof.Gen.KernelIdeal
import proofs.«115556_j12833362280950_1_alg».proof.Proof.Gen.KernelIdeal.Skeleton
import proofs.«115556_j12833362280950_1_alg».proof.Proof.Gen.KernelIdeal.Launch
import proofs.«115556_j12833362280950_1_alg».proof.Proof.Gen.KernelIdeal.Flash
import proofs.«115556_j12833362280950_1_alg».proof.Proof.Gen.ReferenceIdeal
import proofs.«115556_j12833362280950_1_alg».proof.Proof.Gen.ReferenceIdeal.Run
import proofs.«115556_j12833362280950_1_alg».proof.Proof.Gen.ReferenceIdeal.Read
import proofs.«115556_j12833362280950_1_alg».proof.Proof.Gen.Pre_finite_inputs
import proofs.«115556_j12833362280950_1_alg».proof.Proof.KFrameRB
import proofs.«115556_j12833362280950_1_alg».proof.Proof.KRun
import proofs.«115556_j12833362280950_1_alg».proof.Proof.RefResult
import proofs.«115556_j12833362280950_1_alg».proof.Proof.PreDecode
import Idealize.ShloMosaic.Adequacy
import Idealize.ShloMosaic.Init

noncomputable section

namespace Cert.Proof

open Idealize.ShloMosaic Idealize.ShloMosaic.TcCoe Idealize.SL.Sem

local notation "𝕀" => Idealize.ShloMosaic.Ideal

/-! ## The two programs' host lines are the same functions -/

/-- The relation rows: the same gather at the same wrapped ids. -/
theorem kRel_eq (a2 : FVec 𝕀 Cert.KernelIdeal.S237x256 .f32) (a4 : IVec Cert.KernelIdeal.S16 32) :
    Cert.KernelIdeal.Hand.kRel a2 a4 = Cert.ReferenceIdeal.Hand.relRows a2 a4 := rfl

/-- The lines after the score table: the same lines. -/
theorem kTail_eq (x : FVec 𝕀 Cert.KernelIdeal.S14541x16 .f32) (a4 : IVec Cert.KernelIdeal.S16 32) (a5 a6 a7 : IVec Cert.KernelIdeal.S272115 32) :
    Cert.KernelIdeal.Hand.kTail x a4 a5 a6 a7 = Cert.ReferenceIdeal.Hand.edgeTail x a4 a5 a6 a7 := rfl

/-- The result as one function of the eight arguments. -/
def result (a0 : FVec 𝕀 Cert.ReferenceIdeal.S16x256 .f32) (a1 : FVec 𝕀 Cert.ReferenceIdeal.S14541x256 .f32) (a2 : FVec 𝕀 Cert.ReferenceIdeal.S237x256 .f32)
    (a3 a4 : IVec Cert.ReferenceIdeal.S16 32) (a5 a6 a7 : IVec Cert.ReferenceIdeal.S272115 32) : FVec 𝕀 Cert.ReferenceIdeal.S16x14541 .f32 :=
  Cert.ReferenceIdeal.Hand.edgeTail (Cert.DistSpec.score a0 (Cert.ReferenceIdeal.Hand.relRows a2 a4) a1 a3) a4 a5 a6 a7

theorem result_congr {a0 a0' : FVec 𝕀 Cert.ReferenceIdeal.S16x256 .f32} {a1 a1' : FVec 𝕀 Cert.ReferenceIdeal.S14541x256 .f32}
    {a2 a2' : FVec 𝕀 Cert.ReferenceIdeal.S237x256 .f32} {a3 a3' a4 a4' : IVec Cert.ReferenceIdeal.S16 32}
    {a5 a5' a6 a6' a7 a7' : IVec Cert.ReferenceIdeal.S272115 32}
    (h0 : a0' = a0) (h1 : a1' = a1) (h2 : a2' = a2) (h3 : a3' = a3) (h4 : a4' = a4) (h5 : a5' = a5) (h6 : a6' = a6) (h7 : a7' = a7) :
    result a0' a1' a2' a3' a4' a5' a6' a7' = result a0 a1 a2 a3 a4 a5 a6 a7 := by
  subst h0 h1 h2 h3 h4 h5 h6 h7; rfl

/-! ## The claims -/

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := 𝕀) m ρ)

/-- The ideal pass rewrote nothing. -/
theorem preserves : Cert.preserves_Kernel_KernelIdeal := trivial

/-- Both runs end with the result array at `result` of the arguments: the kernel's by its run read at the result, the
    reference's by its generated run and the entrywise comparison, under the opened precondition. -/
theorem algebraic : Cert.algebraic_KernelIdeal_ReferenceIdeal := by
  intro m ρ m' ρ' hpre hagree
  have hd := fun c => Cert.PreHand.pre_decode _ _ _ _ _ _ _ _ (hpre c)
  refine ⟨fun c => result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun _ h c => ⟨(h c).1.trans ?_, (h c).2⟩) (Cert.KernelIdeal.Hand.run_value m ρ)
    exact (congrArg (fun rel => Cert.KernelIdeal.Hand.kTail (Cert.DistSpec.score (m ((c.tc : Thread Cert.KernelIdeal.nD Cert.KernelIdeal.τ).loc Cert.KernelIdeal.main_arg0)) rel (m ((c.tc : Thread Cert.KernelIdeal.nD Cert.KernelIdeal.τ).loc Cert.KernelIdeal.main_arg1)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
      (kRel_eq (m ((c.tc : Thread Cert.KernelIdeal.nD Cert.KernelIdeal.τ).loc Cert.KernelIdeal.main_arg2)) (m ((c.tc : Thread Cert.KernelIdeal.nD Cert.KernelIdeal.τ).loc Cert.KernelIdeal.main_arg4)))).trans (kTail_eq _ _ _ _ _)
  · refine (θ_run Cert.ReferenceIdeal.defs _ _).mono (fun _ h c => ⟨(h c).1.trans ?_, (h c).2⟩)
      (Cert.ReferenceIdeal.Hand.run_score m' ρ'
        (fun c i => by rw [(hagree c).1]; exact (hd c).1 i)
        (fun c i => by rw [(hagree c).2.1]; exact (hd c).2.1 i)
        (fun c i => by rw [(hagree c).2.2.1]; exact (hd c).2.2.1 i)
        (fun c b => by rw [(hagree c).2.2.2.1]; exact (hd c).2.2.2 b))
    exact result_congr (hagree c).1 (hagree c).2.1 (hagree c).2.2.1 (hagree c).2.2.2.1 (hagree c).2.2.2.2.1
      (hagree c).2.2.2.2.2.1 (hagree c).2.2.2.2.2.2.1 (hagree c).2.2.2.2.2.2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
